-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S256x128 : Shape := ⟨2, ![256, 128]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S128x256 .f32) (main_arg3 : FVec F S128 .f32) (main_arg4 : FVec F S256x128 .f32) (main_arg5 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S256x128 : Shape := ⟨2, ![256, 128]⟩
abbrev S256 : Shape := ⟨1, ![256]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S2000x256 : Shape := ⟨2, ![2000, 256]⟩
abbrev S2000x1 : Shape := ⟨2, ![2000, 1]⟩
abbrev S2000x128 : Shape := ⟨2, ![2000, 128]⟩
abbrev S1600000x128 : Shape := ⟨2, ![1600000, 128]⟩
abbrev S1x128 : Shape := ⟨2, ![1, 128]⟩
abbrev S1x256 : Shape := ⟨2, ![1, 256]⟩

abbrev nBuf : Space → Nat
  | .hbm => 43
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S256x128, .f32⟩
  | .hbm, ⟨5, _⟩ => ⟨S256, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S256x128, .f32⟩
  | .hbm, ⟨22, _⟩ => ⟨S100000x128, .f32⟩
  | .hbm, ⟨23, _⟩ => ⟨S100000x128, .bf16⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .bf16⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x128, .f32⟩
  | .hbm, ⟨39, _⟩ => ⟨S128x256, .f32⟩
  | .hbm, ⟨40, _⟩ => ⟨S1x256, .f32⟩
  | .hbm, ⟨41, _⟩ => ⟨S100000x128, .f32⟩
  | .hbm, ⟨42, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .bf16⟩
  | .local _ .vmem, ⟨8, _⟩ => ⟨S2000x128, .bf16⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S1x128, .f32⟩
  | .local _ .vmem, ⟨16, _⟩ => ⟨S128x256, .f32⟩
  | .local _ .vmem, ⟨17, _⟩ => ⟨S1x256, .f32⟩
  | .local _ .vmem, ⟨18, _⟩ => ⟨S2000x128, .f32⟩
  | .local _ .vmem, ⟨19, _⟩ => ⟨S2000x128, .f32⟩
  | .local _ .vmem, ⟨20, _⟩ => ⟨S2000x256, .f32⟩
  | .local _ .vmem, ⟨21, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  transposes_S128x256_S256x128_1_0 : S128x256.Transposes [1, 0] S256x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S100000x128 : S_.BroadcastsInDim S100000x128 (![] : Fin 0 → Fin S100000x128.rank)
  shapeCasts_S128_S1x128 : S128.ShapeCasts S1x128
  transposes_S256x128_S128x256_1_0 : S256x128.Transposes [1, 0] S128x256
  shapeCasts_S256_S1x256 : S256.ShapeCasts S1x256
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S100000_S1600000x1_S1600000_n_0_0_1_wf : ScatterDims.WF S100000 S1600000x1 S1600000 [] [0] [0] 1
  dot_S2000x256_S256x128_S2000x128_1_0_0_1_n_n_wf : DotDims.WF S2000x256 S256x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .bf16 = 32 ∨ (Rect.block (s := S100000x128) S2000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S100000x256.size a
  hwx1_7 : ∀ i : grid1.Coords, EltTy.bits .f32 = 32 ∨ (Rect.block (s := S100000x256) S2000x256.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28_0) S2000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v28_1) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S256x128 : Shape := ⟨2, ![256, 128]⟩
abbrev S256 : Shape := ⟨1, ![256]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x256 : Shape := ⟨2, ![1, 256]⟩

abbrev nBuf : Space → Nat
  | .hbm => 68
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S256x128, .f32⟩
  | .hbm, ⟨5, _⟩ => ⟨S256, .f32⟩
  | .hbm, ⟨6, _⟩ => ⟨S256x128, .f32⟩
  | .hbm, ⟨7, _⟩ => ⟨S100000x128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .f32⟩
  | .hbm, ⟨50, _⟩ => ⟨S1700000x1, .f32⟩
  | .hbm, ⟨51, _⟩ => ⟨S1700000x128, .f32⟩
  | .hbm, ⟨52, _⟩ => ⟨S1700000x128, .f32⟩
  | .hbm, ⟨53, _⟩ => ⟨S_, .f32⟩
  | .hbm, ⟨54, _⟩ => ⟨S100000x128, .f32⟩
  | .hbm, ⟨55, _⟩ => ⟨S1700000x1, .i32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S128x256, .f32⟩
  | .hbm, ⟨64, _⟩ => ⟨S100000x256, .f32⟩
  | .hbm, ⟨65, _⟩ => ⟨S1x256, .f32⟩
  | .hbm, ⟨66, _⟩ => ⟨S100000x256, .f32⟩
  | .hbm, ⟨67, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_cst : Ref sig .tc := ⟨.hbm, 60, rfl⟩
abbrev main_call0_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]

class Facts₀ : Prop where
  transposes_S128x256_S256x128_1_0 : S128x256.Transposes [1, 0] S256x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x256_S100000x256_1_0_0_1_n_n_wf : DotDims.WF S100000x128 S128x256 S100000x256 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.KRun.lean ====
/-
  The idealized kernel's run with its two results named.

  The program is four stretches: host operations, the encoder's grid, host operations (the edge gather and the
  scatter-add), the decoder's grid.  The generated frame threads the contents of every unscoped buffer through the
  four stretches and ends with all of them at the last boundary's contents; here that final read is kept for the two
  result buffers (the hidden code and the reconstruction) beside the six arguments, which end as launched.
-/
import proofs.«109403_j12893491822678_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two result buffers end at the last boundary's
    contents and the arguments end as launched. -/
theorem run_out : θ_run defs (onTc (τ := τ) (main (F := F))) ⟨m, fun _ => 0, ρ⟩ (fun r => ∀ c : Dev nD,
      r.2.mem ((c.tc : Thread nD τ).loc main_v28_0) = W4 m ρ c (Proc.devRef .tc main_v28_0)
      ∧ r.2.mem ((c.tc : Thread nD τ).loc main_v28_1) = W4 m ρ c (Proc.devRef .tc main_v28_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v28_0 (by decide)), h c _ (mem_uc main_v28_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.KRun

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibKeepdims.lean ====
/-
  A vector of row statistics carried to a matrix, read at an index: the cast of a length-`a` vector to an
  `[a, 1]` column reads its entry at the row, and the column broadcast to `[a, b]` reads the column's entry at
  the row whatever the lane. Also: a fold of `max` is above the value it starts from, so taking the maximum
  with that start once more changes nothing.
-/
import Idealize.ShloMosaic.Lib.Pipeline.Value
import Idealize.ShloMosaic.Lib.ValueIdx
import Mathlib.Data.Finset.Fold

namespace Idealize.ShloMosaic.Keepdims

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a row statistic spread over the lanes of its row. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A fold of `max` from `b` is at least `b`: the maximum of `b` and the fold is the fold. -/
theorem max_fold_max_self {ι β : Type} [LinearOrder β] (s : Finset ι) (b : β) (f : ι → β) :
    max b (s.fold max b f) = s.fold max b f :=
  max_eq_right ((Finset.le_fold_max (c := b)).2 (Or.inl le_rfl))

end Idealize.ShloMosaic.Keepdims
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.KBody.lean ====
/-
  The two kernel bodies' arithmetic at one entry of a block, over the extended reals.

  Encoder (a block of 2000 rows): the raw code is the product of the row block of x with the whole transposed
  encoder weight, entry (r, l) = ∑ c, x (r, c) · W (c, l); the scaled code is that times the row's normalisation.
  Decoder (a block of 2000 rows): the hidden code is max (d · a + (d · d) · h + b, 0) with d the row's
  normalisation, a the aggregated row, h the raw code and b the bias row; the reconstruction is its product with
  the whole transposed decoder weight plus the decoder's bias row.  Changes of float format are the identity.
-/
import proofs.«109403_j12893491822678_2_alg».proof.Proof.Gen.KernelIdeal.Skeleton
import proofs.«109403_j12893491822678_2_alg».proof.Proof.LibPlainDot
import proofs.«109403_j12893491822678_2_alg».proof.Proof.LibKeepdims
import proofs.«109403_j12893491822678_2_alg».proof.Proof.LibRowVector
import Idealize.ShloMosaic.Lib.Pipeline.Value
import Idealize.ShloMosaic.Lib.ValueIdx

noncomputable section

open scoped BigOperators

namespace Cert.KernelIdeal.KBody

open Cert.KernelIdeal Cert.KernelIdeal.Gen Idealize.ShloMosaic Idealize.ShloMosaic.ValueIdx

variable [Facts]

/-- The encoder's raw code at (r, l): the row of x against the column of the transposed weight. -/
theorem enc_raw (x0 : Vec Ideal S2000x256 .f32) (x1 : Vec Ideal S256x128 .f32) (r : Fin 2000) (l : Fin 128) :
    k0_pay1 (F := Ideal) x0 x1 (ix2 r l) = ∑ c : Fin 256, x0 (ix2 r c) * x1 (ix2 c l) := by
  unfold k0_pay1
  rw [shapeCast_self]
  exact Cert.PlainDot.matmul_zero_apply dot_S2000x256_S256x128_S2000x128_1_0_0_1_n_n rfl none _ _ r l

/-- The encoder's scaled code at (r, l): the raw code times the row's normalisation. -/
theorem enc_scaled (x0 : Vec Ideal S2000x256 .f32) (x1 : Vec Ideal S256x128 .f32) (x2 : Vec Ideal S2000x1 .f32)
    (r : Fin 2000) (l : Fin 128) :
    k0_pay2 (F := Ideal) x0 x1 x2 (ix2 r l) = k0_pay1 (F := Ideal) x0 x1 (ix2 r l) * x2 (ix2 r (0 : Fin 1)) := by
  unfold k0_pay2
  rw [shapeCast_self]
  refine congrArg (k0_pay1 (F := Ideal) x0 x1 (ix2 r l) * ·) ?_
  exact Idealize.ShloMosaic.Keepdims.broadcastTo_a1_ab_apply x2 broadcasts_S2000x1_S2000x128 r l

/-- The decoder's hidden code at (r, l). -/
theorem dec_code (v0 : Vec Ideal S2000x1 .f32) (v2 v4 : Vec Ideal S2000x128 .f32) (v12 : Vec Ideal S1x128 .f32)
    (r : Fin 2000) (l : Fin 128) :
    k1_pay1 (F := Ideal) v0 v2 v4 v12 (ix2 r l)
      = max ((v0 (ix2 r (0 : Fin 1)) * v2 (ix2 r l) + (v0 (ix2 r (0 : Fin 1)) * v0 (ix2 r (0 : Fin 1))) * v4 (ix2 r l))
          + v12 (ix2 (0 : Fin 1) l)) 0 := by
  unfold k1_pay1
  rw [shapeCast_self, shapeCast_self, shapeCast_self, shapeCast_self]
  have e1 : broadcastTo S2000x128 v0 broadcasts_S2000x1_S2000x128 (ix2 r l) = v0 (ix2 r (0 : Fin 1)) :=
    Idealize.ShloMosaic.Keepdims.broadcastTo_a1_ab_apply v0 broadcasts_S2000x1_S2000x128 r l
  have e2 : broadcastTo S2000x128 (mulf (F := Ideal) (s := S2000x1) (φ := .f32) v0 v0) broadcasts_S2000x1_S2000x128 (ix2 r l)
      = v0 (ix2 r (0 : Fin 1)) * v0 (ix2 r (0 : Fin 1)) :=
    Idealize.ShloMosaic.Keepdims.broadcastTo_a1_ab_apply (mulf (F := Ideal) (s := S2000x1) (φ := .f32) v0 v0) broadcasts_S2000x1_S2000x128 r l
  have e3 : broadcastTo S2000x128 v12 broadcasts_S1x128_S2000x128 (ix2 r l) = v12 (ix2 (0 : Fin 1) l) :=
    Cert.RowVector.broadcastTo_row (by decide) v12 broadcasts_S1x128_S2000x128 r l
  show max ((broadcastTo S2000x128 v0 broadcasts_S2000x1_S2000x128 (ix2 r l) * v2 (ix2 r l)
      + broadcastTo S2000x128 (mulf (F := Ideal) (s := S2000x1) (φ := .f32) v0 v0) broadcasts_S2000x1_S2000x128 (ix2 r l) * v4 (ix2 r l))
      + broadcastTo S2000x128 v12 broadcasts_S1x128_S2000x128 (ix2 r l)) (Ideal.ofBits .f32 0x00000000#32) = _
  rw [e1, e2, e3, Ideal.ofBits_zero_f32]

/-- The decoder's reconstruction at (r, j): the hidden code's row against the column of the transposed weight,
    plus the bias. -/
theorem dec_recon (v0 : Vec Ideal S2000x1 .f32) (v2 v4 : Vec Ideal S2000x128 .f32) (v12 : Vec Ideal S1x128 .f32)
    (v20 : Vec Ideal S128x256 .f32) (v24 : Vec Ideal S1x256 .f32) (r : Fin 2000) (j : Fin 256) :
    k1_pay2 (F := Ideal) v0 v2 v4 v12 v20 v24 (ix2 r j)
      = (∑ l : Fin 128, k1_pay1 (F := Ideal) v0 v2 v4 v12 (ix2 r l) * v20 (ix2 l j)) + v24 (ix2 (0 : Fin 1) j) := by
  unfold k1_pay2
  rw [shapeCast_self, shapeCast_self]
  have e1 := Cert.PlainDot.matmul_zero_apply dot_S2000x128_S128x256_S2000x256_1_0_0_1_n_n rfl none
    (truncf .bf16 (k1_pay1 (F := Ideal) v0 v2 v4 v12) bitsLt_bf16_f32) (truncf .bf16 v20 bitsLt_bf16_f32) r j
  have e2 : broadcastTo S2000x256 v24 broadcasts_S1x256_S2000x256 (ix2 r j) = v24 (ix2 (0 : Fin 1) j) :=
    Cert.RowVector.broadcastTo_row (by decide) v24 broadcasts_S1x256_S2000x256 r j
  exact (congrArg₂ (· + ·) e1 e2)

end Cert.KernelIdeal.KBody

end
-- ==== Proof.KRegion0.lean ====
/-
  The encoder's grid, read as whole arrays.

  The grid has 50 points; point t reads rows [2000 t, 2000 t + 2000) of x and of the normalisation column and the
  whole transposed weight, and writes the same rows of the raw and of the scaled code.  The 50 row blocks tile the
  100000 rows, so after the grid the raw code holds, at (k, l), the sum over c of x (k, c) · Wᵀ (c, l), and the scaled
  code that sum times the normalisation of row k — for whatever contents the three input arrays have when the grid
  is entered.
-/
import proofs.«109403_j12893491822678_2_alg».proof.Proof.Gen.KernelIdeal.Frame
import proofs.«109403_j12893491822678_2_alg».proof.Proof.KBody

set_option maxRecDepth 16384

noncomputable section

open scoped BigOperators

namespace Cert.KernelIdeal.KRegion

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The encoder's index maps over its grid: row-blocked windows sit at block (t, 0), the weight at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The grid's three input arrays as it finds them: x, the transposed encoder weight, the normalisation column. -/
abbrev Xa (c : Dev nD) : S100000x256.Idx → EReal := V c main_arg0
abbrev Wt (c : Dev nD) : S256x128.Idx → EReal := V c main_v12
abbrev Dc (c : Dev nD) : S100000x1.Idx → EReal := V c main_v11

/-- The raw code at (k, l). -/
def hraw (c : Dev nD) (k : Fin 100000) (l : Fin 128) : EReal :=
  ∑ q : Fin 256, Xa V c (ix2 k q) * Wt V c (ix2 q l)

/-- The scaled code at (k, l). -/
def hscaled (c : Dev nD) (k : Fin 100000) (l : Fin 128) : EReal := hraw V c k l * Dc V c (ix2 k (0 : Fin 1))

def G3 (c : Dev nD) : S100000x128.Idx → EReal := fun i => hraw V c ⟨(i 0).val, idx2_lt0 i⟩ ⟨(i 1).val, idx2_lt1 i⟩
def G4 (c : Dev nD) : S100000x128.Idx → EReal := fun i => hscaled V c ⟨(i 0).val, idx2_lt0 i⟩ ⟨(i 1).val, idx2_lt1 i⟩

/-- Point t's raw code at row r of its block is the raw code of row 2000 t + r. -/
theorem raw_at (c : Dev nD) (t : Fin cfg0.N) (r : Fin 2000) (l : Fin 128) (hr : t.val * 2000 + r.val < 100000) :
    k0_pay1 (F := Ideal) (iblk0 V c 0 t) (iblk0 V c 1 t) (ix2 r l) = hraw V c ⟨t.val * 2000 + r.val, hr⟩ l := by
  obtain ⟨e00, e01, e10, e11, e20, e21, e30, e31, e40, e41⟩ := idx0 t
  refine (KBody.enc_raw _ _ _ _).trans ?_
  unfold hraw
  refine Finset.sum_congr rfl fun q _ => ?_
  have h0 : iblk0 V c 0 t (ix2 r q) = Xa V c (ix2 ⟨t.val * 2000 + r.val, hr⟩ q) := by
    show Xa V c (((cfg0.win 0).blk t).view.emb (ix2 r q)) = _
    refine congrArg (Xa V c) (funext fun a => Fin.ext ?_)
    match a with
    | ⟨0, _⟩ => show win0_0.index t (0 : Fin 2) * 2000 + 1 * r.val = t.val * 2000 + r.val; omega
    | ⟨1, _⟩ => show win0_0.index t (1 : Fin 2) * 256 + 1 * q.val = q.val; omega
  have h1 : iblk0 V c 1 t (ix2 q l) = Wt V c (ix2 q l) := by
    show Wt V c (((cfg0.win 1).blk t).view.emb (ix2 q l)) = _
    refine congrArg (Wt V c) (funext fun a => Fin.ext ?_)
    match a with
    | ⟨0, _⟩ => show win0_1.index t (0 : Fin 2) * 256 + 1 * q.val = q.val; omega
    | ⟨1, _⟩ => show win0_1.index t (1 : Fin 2) * 128 + 1 * l.val = l.val; omega
  rw [h0, h1]

/-- What point t writes back to the raw code is its block of the whole-array raw code. -/
theorem flushed0_3 (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x128) hz]
  obtain ⟨e00, e01, e10, e11, e20, e21, e30, e31, e40, e41⟩ := idx0 t
  funext j
  show k0_pay1 (F := Ideal) (iblk0 V c 0 t) (iblk0 V c 1 t) j = G3 V c (((cfg0.win 3).blk t).view.emb j)
  have hj0 : (j 0).val < 2000 := (j 0).isLt
  have hj1 : (j 1).val < 128 := (j 1).isLt
  have ej : j = ix2 (⟨(j 0).val, hj0⟩ : Fin 2000) (⟨(j 1).val, hj1⟩ : Fin 128) := by
    funext a; match a with | ⟨0, _⟩ => rfl | ⟨1, _⟩ => rfl
  have hN : cfg0.N = 50 := N_0
  have ht : t.val < 50 := by have := t.isLt; omega
  have hr : t.val * 2000 + (j 0).val < 100000 := by omega
  rw [ej]
  refine (raw_at V c t ⟨(j 0).val, hj0⟩ ⟨(j 1).val, hj1⟩ hr).trans ?_
  unfold G3
  refine congrArg₂ (hraw V c) (Fin.ext ?_) (Fin.ext ?_)
  · show t.val * 2000 + (j 0).val = win0_3.index t (0 : Fin 2) * 2000 + 1 * (j 0).val
    omega
  · show (j 1).val = win0_3.index t (1 : Fin 2) * 128 + 1 * (j 1).val
    omega

/-- What point t writes back to the scaled code is its block of the whole-array scaled code. -/
theorem flushed0_4 (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  unfold out0_4
  rw [View.canon_unit_zero hz]
  simp only [View.ld_unit_zero (S := S2000x256) hz, View.ld_unit_zero (S := S256x128) hz, View.ld_unit_zero (S := S2000x1) hz]
  obtain ⟨e00, e01, e10, e11, e20, e21, e30, e31, e40, e41⟩ := idx0 t
  funext j
  show k0_pay2 (F := Ideal) (iblk0 V c 0 t) (iblk0 V c 1 t) (iblk0 V c 2 t) j = G4 V c (((cfg0.win 4).blk t).view.emb j)
  have hj0 : (j 0).val < 2000 := (j 0).isLt
  have hj1 : (j 1).val < 128 := (j 1).isLt
  have ej : j = ix2 (⟨(j 0).val, hj0⟩ : Fin 2000) (⟨(j 1).val, hj1⟩ : Fin 128) := by
    funext a; match a with | ⟨0, _⟩ => rfl | ⟨1, _⟩ => rfl
  have hN : cfg0.N = 50 := N_0
  have ht : t.val < 50 := by have := t.isLt; omega
  have hr : t.val * 2000 + (j 0).val < 100000 := by omega
  rw [ej]
  refine (KBody.enc_scaled _ _ _ _ _).trans ?_
  rw [raw_at V c t ⟨(j 0).val, hj0⟩ ⟨(j 1).val, hj1⟩ hr]
  have h2 : iblk0 V c 2 t (ix2 (⟨(j 0).val, hj0⟩ : Fin 2000) (0 : Fin 1)) = Dc V c (ix2 ⟨t.val * 2000 + (j 0).val, hr⟩ (0 : Fin 1)) := by
    show Dc V c (((cfg0.win 2).blk t).view.emb (ix2 (⟨(j 0).val, hj0⟩ : Fin 2000) (0 : Fin 1))) = _
    refine congrArg (Dc V c) (funext fun a => Fin.ext ?_)
    match a with
    | ⟨0, _⟩ => show win0_2.index t (0 : Fin 2) * 2000 + 1 * (j 0).val = t.val * 2000 + (j 0).val; omega
    | ⟨1, _⟩ => show win0_2.index t (1 : Fin 2) * 1 + 1 * 0 = 0; omega
  rw [h2]
  unfold G4
  refine congrArg₂ (hscaled V c) (Fin.ext ?_) (Fin.ext ?_)
  · show t.val * 2000 + (j 0).val = win0_4.index t (0 : Fin 2) * 2000 + 1 * (j 0).val
    omega
  · show (j 1).val = win0_4.index t (1 : Fin 2) * 128 + 1 * (j 1).val
    omega

/-- An index of the raw code lies in point t's block iff each coordinate lies in the block's range on its axis. -/
theorem mem_blk0_3 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v13_0).slice (win0_3.rect t)).set ↔ _
  rw [View.set_slice_whole, Rect.mem_set_unit]
  exact Iff.rfl

theorem mem_blk0_4 (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v13_1).slice (win0_4.rect t)).set ↔ _
  rw [View.set_slice_whole, Rect.mem_set_unit]
  exact Iff.rfl

/-- Row k lies in the block of point k / 2000. -/
theorem cover0_3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  have hq : (i 0).val / 2000 < cfg0.N := by omega
  obtain ⟨e00, e01, e10, e11, e20, e21, e30, e31, e40, e41⟩ := idx0 ⟨(i 0).val / 2000, hq⟩
  refine ⟨⟨(i 0).val / 2000, hq⟩, flush0_3 _, ?_⟩
  rw [mem_blk0_3]
  intro a
  match a with
  | ⟨0, _⟩ =>
    show win0_3.index ⟨(i 0).val / 2000, hq⟩ (0 : Fin 2) * 2000 ≤ (i 0).val ∧ (i 0).val < win0_3.index ⟨(i 0).val / 2000, hq⟩ (0 : Fin 2) * 2000 + 2000
    rw [e30]; show (i 0).val / 2000 * 2000 ≤ (i 0).val ∧ (i 0).val < (i 0).val / 2000 * 2000 + 2000; omega
  | ⟨1, _⟩ =>
    show win0_3.index ⟨(i 0).val / 2000, hq⟩ (1 : Fin 2) * 128 ≤ (i 1).val ∧ (i 1).val < win0_3.index ⟨(i 0).val / 2000, hq⟩ (1 : Fin 2) * 128 + 128
    rw [e31]; omega

theorem cover0_4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 50 := N_0
  have hq : (i 0).val / 2000 < cfg0.N := by omega
  obtain ⟨e00, e01, e10, e11, e20, e21, e30, e31, e40, e41⟩ := idx0 ⟨(i 0).val / 2000, hq⟩
  refine ⟨⟨(i 0).val / 2000, hq⟩, flush0_4 _, ?_⟩
  rw [mem_blk0_4]
  intro a
  match a with
  | ⟨0, _⟩ =>
    show win0_4.index ⟨(i 0).val / 2000, hq⟩ (0 : Fin 2) * 2000 ≤ (i 0).val ∧ (i 0).val < win0_4.index ⟨(i 0).val / 2000, hq⟩ (0 : Fin 2) * 2000 + 2000
    rw [e40]; show (i 0).val / 2000 * 2000 ≤ (i 0).val ∧ (i 0).val < (i 0).val / 2000 * 2000 + 2000; omega
  | ⟨1, _⟩ =>
    show win0_4.index ⟨(i 0).val / 2000, hq⟩ (1 : Fin 2) * 128 ≤ (i 1).val ∧ (i 1).val < win0_4.index ⟨(i 0).val / 2000, hq⟩ (1 : Fin 2) * 128 + 128
    rw [e41]; omega

/-- After the grid the raw code is the whole-array raw code … -/
theorem final0_3 (c : Dev nD) : (dat0 V c).arrAt 3 cfg0.N = G3 V c :=
  (dat0 V c).arrAt_eq_of_cover 3 (G3 V c) (fun t _ => flushed0_3 V c t) cover0_3

/-- … and the scaled code the whole-array scaled code. -/
theorem final0_4 (c : Dev nD) : (dat0 V c).arrAt 4 cfg0.N = G4 V c :=
  (dat0 V c).arrAt_eq_of_cover 4 (G4 V c) (fun t _ => flushed0_4 V c t) cover0_4

end Cert.KernelIdeal.KRegion

end
-- ==== Proof.KRegion1.lean ====
/-
  The decoder's grid, read as whole arrays.

  The grid has 50 points; point t reads rows [2000 t, 2000 t + 2000) of the aggregated messages, of the raw code and
  of the normalisation column, and the whole bias rows and transposed decoder weight, and writes the same rows of the
  hidden code and of the reconstruction.  The row blocks tile the 100000 rows, so after the grid the hidden code holds
  at (k, l) the value max (d k · a (k, l) + (d k · d k) · h (k, l) + b l, 0) and the reconstruction at (k, j) the sum
  over l of the hidden code (k, l) · Wᵀ (l, j) plus the decoder bias j — for whatever the six input arrays hold when
  the grid is entered.
-/
import proofs.«109403_j12893491822678_2_alg».proof.Proof.Gen.KernelIdeal.Frame
import proofs.«109403_j12893491822678_2_alg».proof.Proof.KBody

set_option maxRecDepth 16384

noncomputable section

open scoped BigOperators

namespace Cert.KernelIdeal.KDecoder

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The decoder's index maps over its grid: row-blocked windows sit at block (t, 0), the rest at (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The grid's six input arrays as it finds them: the aggregated messages, the raw code, the normalisation column,
    the encoder bias row, the transposed decoder weight, the decoder bias row. -/
abbrev Ag (c : Dev nD) : S100000x128.Idx → EReal := V c main_v24
abbrev Hr (c : Dev nD) : S100000x128.Idx → EReal := V c main_v13_0
abbrev Dc (c : Dev nD) : S100000x1.Idx → EReal := V c main_v11
abbrev Be (c : Dev nD) : S1x128.Idx → EReal := V c main_v25
abbrev Wd (c : Dev nD) : S128x256.Idx → EReal := V c main_v26
abbrev Bd (c : Dev nD) : S1x256.Idx → EReal := V c main_v27

/-- The hidden code at (k, l). -/
def zc (c : Dev nD) (k : Fin 100000) (l : Fin 128) : EReal :=
  max ((Dc V c (ix2 k (0 : Fin 1)) * Ag V c (ix2 k l)
      + (Dc V c (ix2 k (0 : Fin 1)) * Dc V c (ix2 k (0 : Fin 1))) * Hr V c (ix2 k l)) + Be V c (ix2 (0 : Fin 1) l)) 0

/-- The reconstruction at (k, j). -/
def xrc (c : Dev nD) (k : Fin 100000) (j : Fin 256) : EReal :=
  (∑ l : Fin 128, zc V c k l * Wd V c (ix2 l j)) + Bd V c (ix2 (0 : Fin 1) j)

def G6 (c : Dev nD) : S100000x128.Idx → EReal := fun i => zc V c ⟨(i 0).val, idx2_lt0 i⟩ ⟨(i 1).val, idx2_lt1 i⟩
def G7 (c : Dev nD) : S100000x256.Idx → EReal := fun i => xrc V c ⟨(i 0).val, idx2_lt0 i⟩ ⟨(i 1).val, idx2_lt1 i⟩

/-- Point t's hidden code at row r of its block is the hidden code of row 2000 t + r. -/
theorem code_at (c : Dev nD) (t : Fin cfg1.N) (r : Fin 2000) (l : Fin 128) (hr : t.val * 2000 + r.val < 100000) :
    k1_pay1 (F := Ideal) (iblk1 V c 2 t) (iblk1 V c 0 t) (iblk1 V c 1 t) (iblk1 V c 3 t) (ix2 r l)
      = zc V c ⟨t.val * 2000 + r.val, hr⟩ l := by
  obtain ⟨e00, e01, e10, e11, e20, e21, e30, e31, e40, e41, e50, e51, e60, e61, e70, e71⟩ := idx1 t
  refine (KBody.dec_code _ _ _ _ _ _).trans ?_
  unfold zc
  have h2 : iblk1 V c 2 t (ix2 r (0 : Fin 1)) = Dc V c (ix2 ⟨t.val * 2000 + r.val, hr⟩ (0 : Fin 1)) := by
    show Dc V c (((cfg1.win 2).blk t).view.emb (ix2 r (0 : Fin 1))) = _
    refine congrArg (Dc V c) (funext fun a => Fin.ext ?_)
    match a with
    | ⟨0, _⟩ => show win1_2.index t (0 : Fin 2) * 2000 + 1 * r.val = t.val * 2000 + r.val; omega
    | ⟨1, _⟩ => show win1_2.index t (1 : Fin 2) * 1 + 1 * 0 = 0; omega
  have h0 : iblk1 V c 0 t (ix2 r l) = Ag V c (ix2 ⟨t.val * 2000 + r.val, hr⟩ l) := by
    show Ag V c (((cfg1.win 0).blk t).view.emb (ix2 r l)) = _
    refine congrArg (Ag V c) (funext fun a => Fin.ext ?_)
    match a with
    | ⟨0, _⟩ => show win1_0.index t (0 : Fin 2) * 2000 + 1 * r.val = t.val * 2000 + r.val; omega
    | ⟨1, _⟩ => show win1_0.index t (1 : Fin 2) * 128 + 1 * l.val = l.val; omega
  have h1 : iblk1 V c 1 t (ix2 r l) = Hr V c (ix2 ⟨t.val * 2000 + r.val, hr⟩ l) := by
    show Hr V c (((cfg1.win 1).blk t).view.emb (ix2 r l)) = _
    refine congrArg (Hr V c) (funext fun a => Fin.ext ?_)
    match a with
    | ⟨0, _⟩ => show win1_1.index t (0 : Fin 2) * 2000 + 1 * r.val = t.val * 2000 + r.val; omega
    | ⟨1, _⟩ => show win1_1.index t (1 : Fin 2) * 128 + 1 * l.val = l.val; omega
  have h3 : iblk1 V c 3 t (ix2 (0 : Fin 1) l) = Be V c (ix2 (0 : Fin 1) l) := by
    show Be V c (((cfg1.win 3).blk t).view.emb (ix2 (0 : Fin 1) l)) = _
    refine congrArg (Be V c) (funext fun a => Fin.ext ?_)
    match a with
    | ⟨0, _⟩ => show win1_3.index t (0 : Fin 2) * 1 + 1 * 0 = 0; omega
    | ⟨1, _⟩ => show win1_3.index t (1 : Fin 2) * 128 + 1 * l.val = l.val; omega
  rw [h2, h0, h1, h3]

/-- Point t's reconstruction at row r of its block is the reconstruction of row 2000 t + r. -/
theorem recon_at (c : Dev nD) (t : Fin cfg1.N) (r : Fin 2000) (j : Fin 256) (hr : t.val * 2000 + r.val < 100000) :
    k1_pay2 (F := Ideal) (iblk1 V c 2 t) (iblk1 V c 0 t) (iblk1 V c 1 t) (iblk1 V c 3 t) (iblk1 V c 4 t) (iblk1 V c 5 t) (ix2 r j)
      = xrc V c ⟨t.val * 2000 + r.val, hr⟩ j := by
  obtain ⟨e00, e01, e10, e11, e20, e21, e30, e31, e40, e41, e50, e51, e60, e61, e70, e71⟩ := idx1 t
  refine (KBody.dec_recon _ _ _ _ _ _ _ _).trans ?_
  unfold xrc
  have h5 : iblk1 V c 5 t (ix2 (0 : Fin 1) j) = Bd V c (ix2 (0 : Fin 1) j) := by
    show Bd V c (((cfg1.win 5).blk t).view.emb (ix2 (0 : Fin 1) j)) = _
    refine congrArg (Bd V c) (funext fun a => Fin.ext ?_)
    match a with
    | ⟨0, _⟩ => show win1_5.index t (0 : Fin 2) * 1 + 1 * 0 = 0; omega
    | ⟨1, _⟩ => show win1_5.index t (1 : Fin 2) * 256 + 1 * j.val = j.val; omega
  rw [h5]
  refine congrArg (· + Bd V c (ix2 (0 : Fin 1) j)) (Finset.sum_congr rfl fun l _ => ?_)
  have h4 : iblk1 V c 4 t (ix2 l j) = Wd V c (ix2 l j) := by
    show Wd V c (((cfg1.win 4).blk t).view.emb (ix2 l j)) = _
    refine congrArg (Wd V c) (funext fun a => Fin.ext ?_)
    match a with
    | ⟨0, _⟩ => show win1_4.index t (0 : Fin 2) * 128 + 1 * l.val = l.val; omega
    | ⟨1, _⟩ => show win1_4.index t (1 : Fin 2) * 256 + 1 * j.val = j.val; omega
  rw [h4, code_at V c t r l hr]

/-- What point t writes back to the hidden code is its block of the whole-array hidden code. -/
theorem flushed1_6 (c : Dev nD) (t : Fin cfg1.N) :
    (dat1 V c).flushed 6 t = ((cfg1.win 6).blk t).view.read (Elt Ideal) (G6 V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S2000x1) hz, View.ld_unit_zero (S := S1x128) hz]
  obtain ⟨e00, e01, e10, e11, e20, e21, e30, e31, e40, e41, e50, e51, e60, e61, e70, e71⟩ := idx1 t
  funext j
  show k1_pay1 (F := Ideal) (iblk1 V c 2 t) (iblk1 V c 0 t) (iblk1 V c 1 t) (iblk1 V c 3 t) j = G6 V c (((cfg1.win 6).blk t).view.emb j)
  have hj0 : (j 0).val < 2000 := (j 0).isLt
  have hj1 : (j 1).val < 128 := (j 1).isLt
  have ej : j = ix2 (⟨(j 0).val, hj0⟩ : Fin 2000) (⟨(j 1).val, hj1⟩ : Fin 128) := by
    funext a; match a with | ⟨0, _⟩ => rfl | ⟨1, _⟩ => rfl
  have hN : cfg1.N = 50 := N_1
  have ht : t.val < 50 := by have := t.isLt; omega
  have hr : t.val * 2000 + (j 0).val < 100000 := by omega
  rw [ej]
  refine (code_at V c t ⟨(j 0).val, hj0⟩ ⟨(j 1).val, hj1⟩ hr).trans ?_
  unfold G6
  refine congrArg₂ (zc V c) (Fin.ext ?_) (Fin.ext ?_)
  · show t.val * 2000 + (j 0).val = win1_6.index t (0 : Fin 2) * 2000 + 1 * (j 0).val
    omega
  · show (j 1).val = win1_6.index t (1 : Fin 2) * 128 + 1 * (j 1).val
    omega

/-- What point t writes back to the reconstruction is its block of the whole-array reconstruction. -/
theorem flushed1_7 (c : Dev nD) (t : Fin cfg1.N) :
    (dat1 V c).flushed 7 t = ((cfg1.win 7).blk t).view.read (Elt Ideal) (G7 V c) := by
  show (cfg1.win 7).cut (grid1.coords t) ((dat1 V c).after 7 t) = _
  rw [after1_7]
  unfold out1_7
  rw [View.canon_unit_zero hz]
  simp only [View.ld_unit_zero (S := S2000x128) hz, View.ld_unit_zero (S := S2000x1) hz, View.ld_unit_zero (S := S1x128) hz,
    View.ld_unit_zero (S := S128x256) hz, View.ld_unit_zero (S := S1x256) hz]
  obtain ⟨e00, e01, e10, e11, e20, e21, e30, e31, e40, e41, e50, e51, e60, e61, e70, e71⟩ := idx1 t
  funext j
  show k1_pay2 (F := Ideal) (iblk1 V c 2 t) (iblk1 V c 0 t) (iblk1 V c 1 t) (iblk1 V c 3 t) (iblk1 V c 4 t) (iblk1 V c 5 t) j = G7 V c (((cfg1.win 7).blk t).view.emb j)
  have hj0 : (j 0).val < 2000 := (j 0).isLt
  have hj1 : (j 1).val < 256 := (j 1).isLt
  have ej : j = ix2 (⟨(j 0).val, hj0⟩ : Fin 2000) (⟨(j 1).val, hj1⟩ : Fin 256) := by
    funext a; match a with | ⟨0, _⟩ => rfl | ⟨1, _⟩ => rfl
  have hN : cfg1.N = 50 := N_1
  have ht : t.val < 50 := by have := t.isLt; omega
  have hr : t.val * 2000 + (j 0).val < 100000 := by omega
  rw [ej]
  refine (recon_at V c t ⟨(j 0).val, hj0⟩ ⟨(j 1).val, hj1⟩ hr).trans ?_
  unfold G7
  refine congrArg₂ (xrc V c) (Fin.ext ?_) (Fin.ext ?_)
  · show t.val * 2000 + (j 0).val = win1_7.index t (0 : Fin 2) * 2000 + 1 * (j 0).val
    omega
  · show (j 1).val = win1_7.index t (1 : Fin 2) * 256 + 1 * (j 1).val
    omega

theorem mem_blk1_6 (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v28_0).slice (win1_6.rect t)).set ↔ _
  rw [View.set_slice_whole, Rect.mem_set_unit]
  exact Iff.rfl

theorem mem_blk1_7 (t : Fin cfg1.N) (i : S100000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v28_1).slice (win1_7.rect t)).set ↔ _
  rw [View.set_slice_whole, Rect.mem_set_unit]
  exact Iff.rfl

/-- Row k lies in the block of point k / 2000. -/
theorem cover1_6 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 50 := N_1
  have hq : (i 0).val / 2000 < cfg1.N := by omega
  obtain ⟨e00, e01, e10, e11, e20, e21, e30, e31, e40, e41, e50, e51, e60, e61, e70, e71⟩ := idx1 ⟨(i 0).val / 2000, hq⟩
  refine ⟨⟨(i 0).val / 2000, hq⟩, flush1_6 _, ?_⟩
  rw [mem_blk1_6]
  intro a
  match a with
  | ⟨0, _⟩ =>
    show win1_6.index ⟨(i 0).val / 2000, hq⟩ (0 : Fin 2) * 2000 ≤ (i 0).val ∧ (i 0).val < win1_6.index ⟨(i 0).val / 2000, hq⟩ (0 : Fin 2) * 2000 + 2000
    rw [e60]; show (i 0).val / 2000 * 2000 ≤ (i 0).val ∧ (i 0).val < (i 0).val / 2000 * 2000 + 2000; omega
  | ⟨1, _⟩ =>
    show win1_6.index ⟨(i 0).val / 2000, hq⟩ (1 : Fin 2) * 128 ≤ (i 1).val ∧ (i 1).val < win1_6.index ⟨(i 0).val / 2000, hq⟩ (1 : Fin 2) * 128 + 128
    rw [e61]; omega

theorem cover1_7 (i : S100000x256.Idx) : ∃ t : Fin cfg1.N, (cfg1.win 7).flush t = true ∧ i ∈ ((cfg1.win 7).blk t).view.set := by
  have hi0 : (i 0).val < 100000 := (i 0).isLt
  have hi1 : (i 1).val < 256 := (i 1).isLt
  have hN : cfg1.N = 50 := N_1
  have hq : (i 0).val / 2000 < cfg1.N := by omega
  obtain ⟨e00, e01, e10, e11, e20, e21, e30, e31, e40, e41, e50, e51, e60, e61, e70, e71⟩ := idx1 ⟨(i 0).val / 2000, hq⟩
  refine ⟨⟨(i 0).val / 2000, hq⟩, flush1_7 _, ?_⟩
  rw [mem_blk1_7]
  intro a
  match a with
  | ⟨0, _⟩ =>
    show win1_7.index ⟨(i 0).val / 2000, hq⟩ (0 : Fin 2) * 2000 ≤ (i 0).val ∧ (i 0).val < win1_7.index ⟨(i 0).val / 2000, hq⟩ (0 : Fin 2) * 2000 + 2000
    rw [e70]; show (i 0).val / 2000 * 2000 ≤ (i 0).val ∧ (i 0).val < (i 0).val / 2000 * 2000 + 2000; omega
  | ⟨1, _⟩ =>
    show win1_7.index ⟨(i 0).val / 2000, hq⟩ (1 : Fin 2) * 256 ≤ (i 1).val ∧ (i 1).val < win1_7.index ⟨(i 0).val / 2000, hq⟩ (1 : Fin 2) * 256 + 256
    rw [e71]; omega

/-- After the grid the hidden code is the whole-array hidden code … -/
theorem final1_6 (c : Dev nD) : (dat1 V c).arrAt 6 cfg1.N = G6 V c :=
  (dat1 V c).arrAt_eq_of_cover 6 (G6 V c) (fun t _ => flushed1_6 V c t) cover1_6

/-- … and the reconstruction the whole-array reconstruction. -/
theorem final1_7 (c : Dev nD) : (dat1 V c).arrAt 7 cfg1.N = G7 V c :=
  (dat1 V c).arrAt_eq_of_cover 7 (G7 V c) (fun t _ => flushed1_7 V c t) cover1_7

end Cert.KernelIdeal.KDecoder

end
-- ==== Proof.KHostDefs.lean ====
/-
  The kernel's host operations as pure functions of the argument arrays.

  Before the encoder's grid the host forms the normalisation column: the edges' target words are cut out of the edge
  array, ones are scatter-added at them into a zero vector, one is added (the self-loop), the reciprocal square root
  is taken and the vector is laid out as a column.  Between the two grids it gathers, for every edge, the row of the
  scaled code its (wrapped) source word picks, and scatter-adds those rows at the edges' target words into a zero
  matrix.  The weights are transposed and the biases laid out as rows.
-/
import proofs.«109403_j12893491822678_2_alg».proof.KernelIdeal
import Idealize.ShloMosaic.PureOps.Ideal

noncomputable section

namespace Cert.KernelIdeal.KHost

open Cert.KernelIdeal Idealize.ShloMosaic

variable [Facts]
open Facts₀ Facts

/-- The edges' source words, as a vector. -/
def rowK (x1 : IVec S2x1600000 32) : IVec S1600000 32 :=
  shapeCast S1600000 (extractStridedSlice S1x1600000 ![0, 0] x1 slices_S2x1600000_S1x1600000_0_0) shapeCasts_S1x1600000_S1600000

/-- The edges' target words, as a vector. -/
def colK (x1 : IVec S2x1600000 32) : IVec S1600000 32 :=
  shapeCast S1600000 (extractStridedSlice S1x1600000 ![1, 0] x1 slices_S2x1600000_S1x1600000_1_0) shapeCasts_S1x1600000_S1600000

/-- The normalisation column. -/
def dinvCol (x1 : IVec S2x1600000 32) : FVec Ideal S100000x1 .f32 :=
  shapeCast S100000x1
    (Host.rsqrt
      (addf
        (Host.scatterAdd scatter_S100000_S1600000x1_S1600000_n_0_0_1
          (broadcastInDim S100000 ![] bcast_S_S100000 (constant (F := Ideal) S_ .f32 0x00000000#32))
          (broadcastInDim S1600000x1 ![0] bcast_S1600000_S1600000x1_0 (colK x1))
          (broadcastInDim S1600000 ![] bcast_S_S1600000 (constant (F := Ideal) S_ .f32 0x3F800000#32)))
        (broadcastInDim S100000 ![] bcast_S_S100000 (constant (F := Ideal) S_ .f32 0x3F800000#32))))
    shapeCasts_S100000_S100000x1

/-- The wrapped source words, as the gather's column of start indices. -/
def pickIdx (x1 : IVec S2x1600000 32) : IVec S1600000x1 32 :=
  broadcastInDim S1600000x1 ![0] bcast_S1600000_S1600000x1_0
    (select
      (cmpi .slt (rowK x1) (broadcastInDim S1600000 ![] bcast_S_S1600000 (constantI S_ 32 0#32)))
      (addi (rowK x1) (broadcastInDim S1600000 ![] bcast_S_S1600000 (constantI S_ 32 100000#32)))
      (rowK x1))

/-- The aggregated messages, from the scaled code `hs`. -/
def aggArr (x1 : IVec S2x1600000 32) (hs : FVec Ideal S100000x128 .bf16) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (colK x1))
    (extf .f32 (Host.gather gather_S100000x128_S1600000x1_S1600000x128_1_0_n_n_0_1_1128 hs (pickIdx x1)) bitsLt_bf16_f32)

/-- The transposed encoder weight. -/
def wEncT (x2 : FVec Ideal S128x256 .f32) : FVec Ideal S256x128 .f32 :=
  transpose S256x128 [1, 0] x2 transposes_S128x256_S256x128_1_0

/-- The transposed decoder weight. -/
def wDecT (x4 : FVec Ideal S256x128 .f32) : FVec Ideal S128x256 .f32 :=
  transpose S128x256 [1, 0] x4 transposes_S256x128_S128x256_1_0

/-- The encoder bias as a row. -/
def bEncRow (x3 : FVec Ideal S128 .f32) : FVec Ideal S1x128 .f32 := shapeCast S1x128 x3 shapeCasts_S128_S1x128

/-- The decoder bias as a row. -/
def bDecRow (x5 : FVec Ideal S256 .f32) : FVec Ideal S1x256 .f32 := shapeCast S1x256 x5 shapeCasts_S256_S1x256

end Cert.KernelIdeal.KHost

end
-- ==== Proof.KMem.lean ====
/-
  What the two grids find in their input arrays, and what the program leaves in its results.

  The buffer contents are threaded through four stretches.  After the first host stretch the encoder finds x itself,
  the transposed encoder weight and the normalisation column.  The encoder's grid writes the raw and the scaled code
  and changes nothing else.  After the second host stretch the decoder finds the aggregated messages (the gather of
  the scaled code scatter-added at the targets), the raw code, the same normalisation column, the two bias rows and
  the transposed decoder weight.  The decoder's grid writes the hidden code and the reconstruction: the two results.
-/
import proofs.«109403_j12893491822678_2_alg».proof.Proof.Gen.KernelIdeal.Frame
import proofs.«109403_j12893491822678_2_alg».proof.Proof.KRegion0
import proofs.«109403_j12893491822678_2_alg».proof.Proof.KRegion1
import proofs.«109403_j12893491822678_2_alg».proof.Proof.KHostDefs
import Idealize.ShloMosaic.Lib.StableHlo.Run

set_option maxRecDepth 16384

noncomputable section

namespace Cert.KernelIdeal.KMem

open Cert.KernelIdeal Cert.KernelIdeal.Gen Idealize.ShloMosaic Idealize.ShloMosaic.TcCoe Idealize.ShloMosaic.StableHlo Idealize.SL.Sem

variable (m : (ℓ : Loc nD τ sig) → Buf (Elt Ideal) ℓ) (ρ : Dev nD → PrngReg)

/-! ## At the encoder's entry -/

theorem V1_arg0 (c : Dev nD) : V1 m ρ c main_arg0 = m ((c : Thread nD τ).loc main_arg0) := by
  show StableHlo.after hostOps0 (W0 m ρ c) (Proc.devRef .tc main_arg0) = _
  after_results

theorem V1_arg3 (c : Dev nD) : V1 m ρ c main_arg3 = m ((c : Thread nD τ).loc main_arg3) := by
  show StableHlo.after hostOps0 (W0 m ρ c) (Proc.devRef .tc main_arg3) = _
  after_results

theorem V1_arg4 (c : Dev nD) : V1 m ρ c main_arg4 = m ((c : Thread nD τ).loc main_arg4) := by
  show StableHlo.after hostOps0 (W0 m ρ c) (Proc.devRef .tc main_arg4) = _
  after_results

theorem V1_arg5 (c : Dev nD) : V1 m ρ c main_arg5 = m ((c : Thread nD τ).loc main_arg5) := by
  show StableHlo.after hostOps0 (W0 m ρ c) (Proc.devRef .tc main_arg5) = _
  after_results

theorem V1_v12 (c : Dev nD) : V1 m ρ c main_v12 = KHost.wEncT (m ((c : Thread nD τ).loc main_arg2)) := by
  show StableHlo.after hostOps0 (W0 m ρ c) (Proc.devRef .tc main_v12) = _
  after_results
  rfl

theorem V1_v11 (c : Dev nD) : V1 m ρ c main_v11 = KHost.dinvCol (m ((c : Thread nD τ).loc main_arg1)) := by
  show StableHlo.after hostOps0 (W0 m ρ c) (Proc.devRef .tc main_v11) = _
  after_results
  rfl

theorem V1_v1 (c : Dev nD) : V1 m ρ c main_v1 = KHost.rowK (m ((c : Thread nD τ).loc main_arg1)) := by
  show StableHlo.after hostOps0 (W0 m ρ c) (Proc.devRef .tc main_v1) = _
  after_results
  rfl

theorem V1_v3 (c : Dev nD) : V1 m ρ c main_v3 = KHost.colK (m ((c : Thread nD τ).loc main_arg1)) := by
  show StableHlo.after hostOps0 (W0 m ρ c) (Proc.devRef .tc main_v3) = _
  after_results
  rfl

/-! ## At the encoder's exit -/

theorem W2_v13_0 (c : Dev nD) : W2 m ρ c (Proc.devRef .tc main_v13_0) = KRegion.G3 (V1 m ρ) c :=
  (W2_arr m ρ c 3).trans (KRegion.final0_3 (V1 m ρ) c)

theorem W2_v13_1 (c : Dev nD) : W2 m ρ c (Proc.devRef .tc main_v13_1) = KRegion.G4 (V1 m ρ) c :=
  (W2_arr m ρ c 4).trans (KRegion.final0_4 (V1 m ρ) c)

theorem W2_v11 (c : Dev nD) : W2 m ρ c (Proc.devRef .tc main_v11) = KHost.dinvCol (m ((c : Thread nD τ).loc main_arg1)) :=
  ((W2_arr m ρ c 2).trans (((dat0 (V1 m ρ) c).arrAt_in 2 rfl _).trans (A_eq0 (V1 m ρ) c 2))).trans (V1_v11 m ρ c)

theorem W2_v1 (c : Dev nD) : W2 m ρ c (Proc.devRef .tc main_v1) = KHost.rowK (m ((c : Thread nD τ).loc main_arg1)) :=
  (W2_of_ne m ρ c main_v1 (by decide)).trans (V1_v1 m ρ c)

theorem W2_v3 (c : Dev nD) : W2 m ρ c (Proc.devRef .tc main_v3) = KHost.colK (m ((c : Thread nD τ).loc main_arg1)) :=
  (W2_of_ne m ρ c main_v3 (by decide)).trans (V1_v3 m ρ c)

theorem W2_arg3 (c : Dev nD) : W2 m ρ c (Proc.devRef .tc main_arg3) = m ((c : Thread nD τ).loc main_arg3) :=
  (W2_of_ne m ρ c main_arg3 (by decide)).trans (V1_arg3 m ρ c)

theorem W2_arg4 (c : Dev nD) : W2 m ρ c (Proc.devRef .tc main_arg4) = m ((c : Thread nD τ).loc main_arg4) :=
  (W2_of_ne m ρ c main_arg4 (by decide)).trans (V1_arg4 m ρ c)

theorem W2_arg5 (c : Dev nD) : W2 m ρ c (Proc.devRef .tc main_arg5) = m ((c : Thread nD τ).loc main_arg5) :=
  (W2_of_ne m ρ c main_arg5 (by decide)).trans (V1_arg5 m ρ c)

/-! ## At the decoder's entry -/

theorem V3_v24 (c : Dev nD) :
    V3 m ρ c main_v24 = KHost.aggArr (m ((c : Thread nD τ).loc main_arg1)) (KRegion.G4 (V1 m ρ) c) := by
  show StableHlo.after hostOps1 (W2 m ρ c) (Proc.devRef .tc main_v24) = _
  after_results
  rw [W2_v3, W2_v1, W2_v13_1]
  rfl

theorem V3_v13_0 (c : Dev nD) : V3 m ρ c main_v13_0 = KRegion.G3 (V1 m ρ) c := by
  show StableHlo.after hostOps1 (W2 m ρ c) (Proc.devRef .tc main_v13_0) = _
  after_results
  exact W2_v13_0 m ρ c

theorem V3_v11 (c : Dev nD) : V3 m ρ c main_v11 = KHost.dinvCol (m ((c : Thread nD τ).loc main_arg1)) := by
  show StableHlo.after hostOps1 (W2 m ρ c) (Proc.devRef .tc main_v11) = _
  after_results
  exact W2_v11 m ρ c

theorem V3_v25 (c : Dev nD) : V3 m ρ c main_v25 = KHost.bEncRow (m ((c : Thread nD τ).loc main_arg3)) := by
  show StableHlo.after hostOps1 (W2 m ρ c) (Proc.devRef .tc main_v25) = _
  after_results
  rw [W2_arg3]
  rfl

theorem V3_v26 (c : Dev nD) : V3 m ρ c main_v26 = KHost.wDecT (m ((c : Thread nD τ).loc main_arg4)) := by
  show StableHlo.after hostOps1 (W2 m ρ c) (Proc.devRef .tc main_v26) = _
  after_results
  rw [W2_arg4]
  rfl

theorem V3_v27 (c : Dev nD) : V3 m ρ c main_v27 = KHost.bDecRow (m ((c : Thread nD τ).loc main_arg5)) := by
  show StableHlo.after hostOps1 (W2 m ρ c) (Proc.devRef .tc main_v27) = _
  after_results
  rw [W2_arg5]
  rfl

/-! ## The results -/

theorem W4_v28_0 (c : Dev nD) : W4 m ρ c (Proc.devRef .tc main_v28_0) = KDecoder.G6 (V3 m ρ) c :=
  (W4_arr m ρ c 6).trans (KDecoder.final1_6 (V3 m ρ) c)

theorem W4_v28_1 (c : Dev nD) : W4 m ρ c (Proc.devRef .tc main_v28_1) = KDecoder.G7 (V3 m ρ) c :=
  (W4_arr m ρ c 7).trans (KDecoder.final1_7 (V3 m ρ) c)

end Cert.KernelIdeal.KMem

end
-- ==== Proof.Spec.lean ====
/-
  The mathematics of the graph-convolution autoencoder both programs compute, index by index over the extended reals.

  Nodes are numbered 0 … 99999, edges 0 … 1599999; edge e has a source word and a target word (32-bit, any value).
  A word lands on node k when, read signed, it is k; a gather reads the row `pick w` (a negative word is first moved
  up by 100000, the result read signed and clamped into [0, 99999]).  With h = x · W_encᵀ, deg k = 1 + the number of
  edges landing on k and dinv = deg^(-1/2):

  * the KERNEL's form scales h by dinv before the edges are summed, and multiplies the edge sum by dinv k afterwards,
    adding the self-loop term dinv k · dinv k · h k apart (`preK`);
  * the REFERENCE's form appends one self-loop edge per node (1700000 edges), weights every edge by
    dinv (source) · dinv (target) and sums (`preR`).

  Both then add the encoder bias, clip at zero (`zOf`) and decode: z · W_decᵀ + b_dec (`xrOf`).
-/
import Idealize.ShloMosaic.PureOps.Ideal
import Idealize.ShloMosaic.Lib.ValueIdx

noncomputable section

open scoped BigOperators

namespace Cert.Gcn

open Idealize.ShloMosaic Idealize.ShloMosaic.ValueIdx

abbrev SX : Shape := ⟨2, ![100000, 256]⟩
abbrev SE : Shape := ⟨2, ![2, 1600000]⟩
abbrev SWe : Shape := ⟨2, ![128, 256]⟩
abbrev SBe : Shape := ⟨1, ![128]⟩
abbrev SWd : Shape := ⟨2, ![256, 128]⟩
abbrev SBd : Shape := ⟨1, ![256]⟩

variable (x : SX.Idx → EReal) (ei : SE.Idx → BitVec 32) (We : SWe.Idx → EReal) (be : SBe.Idx → EReal)
  (Wd : SWd.Idx → EReal) (bd : SBd.Idx → EReal)

/-- Edge e's source word. -/
def src (e : Fin 1600000) : BitVec 32 := ei (ix2 0 e)
/-- Edge e's target word. -/
def tgt (e : Fin 1600000) : BitVec 32 := ei (ix2 1 e)

/-- A negative word is moved up by the number of nodes before a gather reads it. -/
def wrap (w : BitVec 32) : BitVec 32 := Scalar.select (IntOp.cmpi .slt w 0#32) (IntOp.addi w 100000#32) w

/-- The row a gather reads for the word w: the wrapped word, read signed, clamped into [0, 99999]. -/
def pick (w : BitVec 32) : Fin 100000 := ⟨min (wrap w).toInt.toNat 99999, by omega⟩

/-- The encoder's linear map: h n l = ∑ c, x n c · W_enc l c. -/
def h (n : Fin 100000) (l : Fin 128) : EReal := ∑ c : Fin 256, x (ix2 n c) * We (ix2 l c)

/-! ## The kernel's form -/

/-- The degree: the edges landing on k, plus one. -/
def degK (k : Fin 100000) : EReal :=
  (∑ e : Fin 1600000, if (tgt ei e).toInt = (k.val : Int) then (1 : EReal) else 0) + 1

def dinvK (k : Fin 100000) : EReal := Ideal.rsqrt (degK ei k)

/-- The sum over the edges landing on k of the scaled source rows. -/
def aggK (k : Fin 100000) (l : Fin 128) : EReal :=
  ∑ e : Fin 1600000, if (tgt ei e).toInt = (k.val : Int)
    then h x We (pick (src ei e)) l * dinvK ei (pick (src ei e)) else 0

/-- The kernel's pre-activation, before the bias. -/
def preK (k : Fin 100000) (l : Fin 128) : EReal :=
  dinvK ei k * aggK x ei We k l + (dinvK ei k * dinvK ei k) * h x We k l

/-! ## The reference's form -/

/-- The target word of extended edge n: edge n's for n < 1600000, else the node number n − 1600000. -/
def tgtR (n : Fin 1700000) : BitVec 32 :=
  if hn : n.val < 1600000 then tgt ei ⟨n.val, hn⟩ else BitVec.ofNat 32 (n.val - 1600000)
/-- The source word of extended edge n. -/
def srcR (n : Fin 1700000) : BitVec 32 :=
  if hn : n.val < 1600000 then src ei ⟨n.val, hn⟩ else BitVec.ofNat 32 (n.val - 1600000)

def degR (k : Fin 100000) : EReal :=
  ∑ n : Fin 1700000, if (tgtR ei n).toInt = (k.val : Int) then (1 : EReal) else 0

def dinvR (k : Fin 100000) : EReal := Ideal.rsqrt (degR ei k)

/-- Extended edge n's message on lane l: the source row times the two normalisations. -/
def msgR (n : Fin 1700000) (l : Fin 128) : EReal :=
  h x We (pick (srcR ei n)) l * (dinvR ei (pick (srcR ei n)) * dinvR ei (pick (tgtR ei n)))

def preR (k : Fin 100000) (l : Fin 128) : EReal :=
  ∑ n : Fin 1700000, if (tgtR ei n).toInt = (k.val : Int) then msgR x ei We n l else 0

/-! ## Bias, clip, decode -/

/-- The hidden code from a pre-activation: add the encoder bias, clip at zero. -/
def zOf (pre : Fin 100000 → Fin 128 → EReal) (k : Fin 100000) (l : Fin 128) : EReal :=
  max (pre k l + be (ix1 l)) 0

/-- The reconstruction from a hidden code z: z · W_decᵀ + b_dec. -/
def xrOf (z : Fin 100000 → Fin 128 → EReal) (k : Fin 100000) (j : Fin 256) : EReal :=
  (∑ l : Fin 128, z k l * Wd (ix2 j l)) + bd (ix1 j)

end Cert.Gcn

end
-- ==== Proof.LibGather.lean ====
/-
  The host's gather of rows, read at one element, for the two layouts an indexed read `x[idx]` along the leading axis
  lowers to when every start index is a one-element index vector (start indices of shape N × 1).

  * Rows (`gather_rows_apply`): the operand is K × C, the result N × C; the row axis is collapsed, the lane axis is the
    one offset axis, and the slice is one whole row. Result element (n, l) is the operand's element (r, l), where r is
    the n-th start index read as a signed integer and clamped into [0, K − 1].
  * Vector (`gather_vec_apply`): the operand is a vector of length K, the result a vector of length N; the one axis is
    collapsed and the slice is one entry. Result entry n is the operand's entry r, with r as above.

  The clamp is StableHLO's: a start index is moved into the range where the slice fits, so a negative word reads row 0
  and a word of K or more reads row K − 1.
-/
import Idealize.ShloMosaic.PureOps.ShapeOps
import Idealize.ShloMosaic.PureOps.Dims
import Idealize.ShloMosaic.Lib.ValueIdx

noncomputable section

namespace Cert.LibGather

open Idealize.ShloMosaic Idealize.ShloMosaic.ValueIdx

variable {N K C w : Nat}

section Rows

variable (d : GatherDims ⟨2, ![K, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])

include h1 h2 h3 h4 h5 h6 h7 in
/-- On the row axis the slice starts at the row's start index, read signed and clamped into [0, K − 1]. -/
theorem start_rows0 (j : (⟨2, ![N, C]⟩ : Shape).Idx) (idx : IVec ⟨2, ![N, 1]⟩ w) :
    d.start j idx 0 = min (idx (ix2 (j 0) 0)).toInt.toNat (K - 1) := by
  obtain ⟨od, cd, ob, sb, sm, iv, ss, wf⟩ := d
  subst h1 h2 h3 h4 h5 h6 h7
  unfold GatherDims.start
  rw [dif_pos (by simp)]
  refine congrArg (fun z => min (idx z).toInt.toNat (K - 1)) ?_
  funext b
  unfold GatherDims.siIdx
  match b with
  | ⟨0, _⟩ => simp; rfl
  | ⟨1, _⟩ => simp; rfl

include h1 h2 h3 h4 h5 h6 h7 in
/-- The lane axis is not in the start index map: the slice starts at lane 0. -/
theorem start_rows1 (j : (⟨2, ![N, C]⟩ : Shape).Idx) (idx : IVec ⟨2, ![N, 1]⟩ w) : d.start j idx 1 = 0 := by
  obtain ⟨od, cd, ob, sb, sm, iv, ss, wf⟩ := d
  subst h1 h2 h3 h4 h5 h6 h7
  unfold GatherDims.start
  rw [dif_neg]
  simp

include h1 h2 h3 h4 h5 h6 h7 in
/-- The row axis is collapsed: no offset on it. -/
theorem offCoord_rows0 (j : (⟨2, ![N, C]⟩ : Shape).Idx) : d.offCoord j 0 = 0 := by
  obtain ⟨od, cd, ob, sb, sm, iv, ss, wf⟩ := d
  subst h1 h2 h3 h4 h5 h6 h7
  unfold GatherDims.offCoord
  rw [dif_neg]
  simp [GatherDims.sKept, Shape.kept]

include h1 h2 h3 h4 h5 h6 h7 in
/-- The lane axis is the offset axis: the offset is the result's lane. -/
theorem offCoord_rows1 (j : (⟨2, ![N, C]⟩ : Shape).Idx) : d.offCoord j 1 = (j 1).val := by
  obtain ⟨od, cd, ob, sb, sm, iv, ss, wf⟩ := d
  subst h1 h2 h3 h4 h5 h6 h7
  unfold GatherDims.offCoord
  rw [dif_pos (by simp [GatherDims.sKept, Shape.kept])]
  rfl

include h1 h2 h3 h4 h5 h6 h7 in
/-- THE ROW GATHER READ AT (n, l): the operand at row "start index n, read signed, clamped into [0, K − 1]", lane l. -/
theorem gather_rows_apply (hK : 0 < K) {α : Type} (x : (⟨2, ![K, C]⟩ : Shape).Idx → α) (idx : IVec ⟨2, ![N, 1]⟩ w)
    (n : Fin N) (l : Fin C) :
    Host.gather d x idx (ix2 n l) = x (ix2 ⟨min (idx (ix2 n 0)).toInt.toNat (K - 1), by omega⟩ l) := by
  have hs0 := start_rows0 d h1 h2 h3 h4 h5 h6 h7 (ix2 n l) idx
  have hs1 := start_rows1 d h1 h2 h3 h4 h5 h6 h7 (ix2 n l) idx
  have ho0 := offCoord_rows0 d h1 h2 h3 h4 h5 h6 h7 (ix2 n l)
  have ho1 := offCoord_rows1 d h1 h2 h3 h4 h5 h6 h7 (ix2 n l)
  have hb : ∀ a, d.batchCoord (ix2 n l) a = 0 := fun a =>
    d.batchCoord_eq_zero _ a (by rw [h3]; exact List.not_mem_nil)
  unfold Host.gather
  congr 1
  funext a
  refine Fin.ext ?_
  match a with
  | ⟨0, _⟩ =>
    show d.start (ix2 n l) idx 0 + d.batchCoord (ix2 n l) 0 + d.offCoord (ix2 n l) 0 = _
    rw [hs0, hb, ho0]; rfl
  | ⟨1, _⟩ =>
    show d.start (ix2 n l) idx 1 + d.batchCoord (ix2 n l) 1 + d.offCoord (ix2 n l) 1 = _
    rw [hs1, hb, ho1]; show 0 + 0 + l.val = l.val; omega

end Rows

section Vec

variable (d : GatherDims ⟨1, ![K]⟩ ⟨2, ![N, 1]⟩ ⟨1, ![N]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])

include h1 h2 h3 h4 h5 h6 h7 in
/-- On the vector's one axis the slice starts at the start index, read signed and clamped into [0, K − 1]. -/
theorem start_vec0 (j : (⟨1, ![N]⟩ : Shape).Idx) (idx : IVec ⟨2, ![N, 1]⟩ w) :
    d.start j idx 0 = min (idx (ix2 (j 0) 0)).toInt.toNat (K - 1) := by
  obtain ⟨od, cd, ob, sb, sm, iv, ss, wf⟩ := d
  subst h1 h2 h3 h4 h5 h6 h7
  unfold GatherDims.start
  rw [dif_pos (by simp)]
  refine congrArg (fun z => min (idx z).toInt.toNat (K - 1)) ?_
  funext b
  unfold GatherDims.siIdx
  match b with
  | ⟨0, _⟩ => simp; rfl
  | ⟨1, _⟩ => simp; rfl

include h1 h2 h3 h4 h5 h6 h7 in
/-- The one axis is collapsed: no offset on it. -/
theorem offCoord_vec0 (j : (⟨1, ![N]⟩ : Shape).Idx) : d.offCoord j 0 = 0 := by
  obtain ⟨od, cd, ob, sb, sm, iv, ss, wf⟩ := d
  subst h1 h2 h3 h4 h5 h6 h7
  unfold GatherDims.offCoord
  rw [dif_neg]
  simp [GatherDims.sKept, Shape.kept]

include h1 h2 h3 h4 h5 h6 h7 in
/-- THE VECTOR GATHER READ AT n: the operand at entry "start index n, read signed, clamped into [0, K − 1]". -/
theorem gather_vec_apply (hK : 0 < K) {α : Type} (x : (⟨1, ![K]⟩ : Shape).Idx → α) (idx : IVec ⟨2, ![N, 1]⟩ w)
    (n : Fin N) :
    Host.gather d x idx (ix1 n) = x (ix1 ⟨min (idx (ix2 n 0)).toInt.toNat (K - 1), by omega⟩) := by
  have hs0 := start_vec0 d h1 h2 h3 h4 h5 h6 h7 (ix1 n) idx
  have ho0 := offCoord_vec0 d h1 h2 h3 h4 h5 h6 h7 (ix1 n)
  have hb : ∀ a, d.batchCoord (ix1 n) a = 0 := fun a =>
    d.batchCoord_eq_zero _ a (by rw [h3]; exact List.not_mem_nil)
  unfold Host.gather
  congr 1
  funext a
  refine Fin.ext ?_
  match a with
  | ⟨0, _⟩ =>
    show d.start (ix1 n) idx 0 + d.batchCoord (ix1 n) 0 + d.offCoord (ix1 n) 0 = _
    rw [hs0, hb, ho0]; rfl

end Vec

end Cert.LibGather

end
-- ==== Proof.LibScatterRows.lean ====
/-
  The landing index of an update for two row-scatter layouts, in closed form, and the accumulating scatter of rows
  re-indexed by the row number.

  * Rows (`resultIdx?_rows`): the operand is `K × C`, the updates are `N × C`, and each update row carries one start
    index. Update `(n, l)` lands at `(k, l')` exactly when the `n`-th start index, read as a signed integer, is `k` and
    `l' = l`: a row keeps its lane, and a start index outside `[0, K)` lands nowhere. Consequently
    (`hostScatterAdd_rows_apply`) the accumulated element `(k, l)` is the operand's element plus the sum, over the rows
    `n` whose start index is `k`, of the update's element `(n, l)`.
  * Row block (`resultIdx?_rowBlock`): an `R × Q` block written into a `P × Q` array at one start row, read off a
    one-element index vector. Update `(r, q)` lands at `(p, q')` exactly when the start row, read signed, plus `r` is
    `p` and `q' = q`.
-/
import Idealize.ShloMosaic.PureOps.ShapeOps
import Idealize.ShloMosaic.PureOps.Dims
import Idealize.ShloMosaic.PureOps.Ideal
import Idealize.ShloMosaic.Lib.ValueIdx

noncomputable section

open scoped BigOperators

namespace Cert.LibScatter

open Idealize.ShloMosaic Idealize.ShloMosaic.ValueIdx

variable {N K C P Q R w : Nat}

section Rows

variable (d : ScatterDims ⟨2, ![K, C]⟩ ⟨2, ![N, 1]⟩ ⟨2, ![N, C]⟩)
    (h1 : d.updateWindowDims = [1]) (h2 : d.insertedWindowDims = [0]) (h3 : d.scatterDimsToOperandDims = [0])
    (h4 : d.indexVectorDim = 1)

include h1 h2 h3 h4 in
/-- The start of update `j` on the row axis is its row's start index, read signed. -/
theorem start_rows0 (j : (⟨2, ![N, C]⟩ : Shape).Idx) (idx : IVec ⟨2, ![N, 1]⟩ w) :
    d.start j idx 0 = (idx (ix2 (j 0) 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The lane axis has no start index: its start is zero. -/
theorem start_rows1 (j : (⟨2, ![N, C]⟩ : Shape).Idx) (idx : IVec ⟨2, ![N, 1]⟩ w) : d.start j idx 1 = 0 := by
  obtain ⟨uw, iw, sd, iv, wf⟩ := d
  subst h1 h2 h3 h4
  unfold ScatterDims.start
  rw [dif_neg]
  simp

include h1 h2 h3 h4 in
/-- The row axis is an inserted one: its window coordinate is zero. -/
theorem window_rows0 (j : (⟨2, ![N, C]⟩ : Shape).Idx) : d.window j 0 = 0 := by
  obtain ⟨uw, iw, sd, iv, wf⟩ := d
  subst h1 h2 h3 h4
  unfold ScatterDims.window
  rw [dif_neg]
  simp [ScatterDims.sKept, Shape.kept]

include h1 h2 h3 h4 in
/-- The lane axis is the window axis: the window coordinate is the update's lane. -/
theorem window_rows1 (j : (⟨2, ![N, C]⟩ : Shape).Idx) : d.window j 1 = (j 1).val := by
  obtain ⟨uw, iw, sd, iv, wf⟩ := d
  subst h1 h2 h3 h4
  unfold ScatterDims.window
  rw [dif_pos (by simp [ScatterDims.sKept, Shape.kept])]
  rfl

include h1 h2 h3 h4 in
/-- Update `(n, l)` lands at `(k, l')` exactly when row `n`'s start index, read signed, is `k` and `l' = l`. -/
theorem resultIdx?_rows (j : (⟨2, ![N, C]⟩ : Shape).Idx) (idx : IVec ⟨2, ![N, 1]⟩ w) (i : (⟨2, ![K, C]⟩ : Shape).Idx) :
    d.resultIdx? j idx = some i ↔ (idx (ix2 (j 0) 0)).toInt = ((i 0).val : Int) ∧ (i 1).val = (j 1).val := by
  have hs0 := start_rows0 d h1 h2 h3 h4 j idx
  have hs1 := start_rows1 d h1 h2 h3 h4 j idx
  have hw0 := window_rows0 d h1 h2 h3 h4 j
  have hw1 := window_rows1 d h1 h2 h3 h4 j
  have hi0 : (i 0).val < K := (i 0).isLt
  have hi1 : (i 1).val < C := (i 1).isLt
  have hj1 : (j 1).val < C := (j 1).isLt
  unfold ScatterDims.resultIdx?
  constructor
  · intro h
    split at h
    · rename_i hin
      have e := Option.some.inj h
      have e0 := congrArg Fin.val (congrFun e 0)
      have e1 := congrArg Fin.val (congrFun e 1)
      simp only [hs0, hw0, hs1, hw1] at e0 e1
      have g0 := (hin 0).1
      rw [hs0, hw0] at g0
      refine ⟨by omega, by omega⟩
    · exact absurd h (by simp)
  · rintro ⟨e0, e1⟩
    have hin : ∀ a, 0 ≤ d.start j idx a + ↑(d.window j a) ∧ d.start j idx a + ↑(d.window j a) < (⟨2, ![K, C]⟩ : Shape).size a := by
      intro a
      match a with
      | ⟨0, _⟩ =>
        show 0 ≤ d.start j idx 0 + ↑(d.window j 0) ∧ d.start j idx 0 + ↑(d.window j 0) < ((K : Nat) : Int)
        rw [hs0, hw0, e0]; omega
      | ⟨1, _⟩ =>
        show 0 ≤ d.start j idx 1 + ↑(d.window j 1) ∧ d.start j idx 1 + ↑(d.window j 1) < ((C : Nat) : Int)
        rw [hs1, hw1]; omega
    rw [dif_pos hin]
    congr 1
    funext a
    apply Fin.ext
    match a with
    | ⟨0, _⟩ =>
      show (d.start j idx 0 + ↑(d.window j 0)).toNat = (i 0).val
      rw [hs0, hw0, e0]; omega
    | ⟨1, _⟩ =>
      show (d.start j idx 1 + ↑(d.window j 1)).toNat = (i 1).val
      rw [hs1, hw1]; omega

include h1 h2 h3 h4 in
/-- The accumulated element `(k, l)` is the operand's element plus the sum of the updates' elements `(n, l)` over
    the rows `n` whose start index, read signed, is `k`. -/
theorem hostScatterAdd_rows_apply (x : (⟨2, ![K, C]⟩ : Shape).Idx → EReal) (idx : IVec ⟨2, ![N, 1]⟩ w)
    (upd : (⟨2, ![N, C]⟩ : Shape).Idx → EReal) (k : Fin K) (l : Fin C) :
    Ideal.hostScatterAdd d x idx upd (ix2 k l)
      = x (ix2 k l) + ∑ n : Fin N, if (idx (ix2 n 0)).toInt = (k.val : Int) then upd (ix2 n l) else 0 := by
  unfold Ideal.hostScatterAdd
  congr 1
  rw [Finset.sum_filter, sum_idx2]
  apply Finset.sum_congr rfl
  intro n _
  -- the landing condition of update (n, l') at (k, l): row n's start index is k, and l' = l
  have hcond : ∀ l' : Fin C, (d.resultIdx? (ix2 n l') idx = some (ix2 k l)) ↔
      ((idx (ix2 n 0)).toInt = (k.val : Int) ∧ l = l') := by
    intro l'
    rw [resultIdx?_rows d h1 h2 h3 h4]
    constructor
    · rintro ⟨a, b⟩; exact ⟨a, Fin.ext b⟩
    · rintro ⟨a, b⟩; exact ⟨a, congrArg Fin.val b⟩
  by_cases hA : (idx (ix2 n 0)).toInt = (k.val : Int)
  · rw [if_pos hA, Finset.sum_eq_single l]
    · rw [if_pos ((hcond l).2 ⟨hA, rfl⟩)]
    · intro l' _ hne
      rw [if_neg]
      intro h
      exact hne ((hcond l').1 h).2.symm
    · intro h
      exact absurd (Finset.mem_univ l) h
  · rw [if_neg hA]
    apply Finset.sum_eq_zero
    intro l' _
    rw [if_neg]
    intro h
    exact hA ((hcond l').1 h).1

end Rows

section RowBlock

variable (d : ScatterDims ⟨2, ![P, Q]⟩ ⟨1, ![1]⟩ ⟨2, ![R, Q]⟩)
    (h1 : d.updateWindowDims = [0, 1]) (h2 : d.insertedWindowDims = []) (h3 : d.scatterDimsToOperandDims = [0])
    (h4 : d.indexVectorDim = 0)

include h1 h2 h3 h4 in
/-- The start on the row axis is the one start index, read signed. -/
theorem start_rowBlock0 (j : (⟨2, ![R, Q]⟩ : Shape).Idx) (idx : IVec ⟨1, ![1]⟩ w) :
    d.start j idx 0 = (idx (ix1 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl

include h1 h2 h3 h4 in
/-- The lane axis has no start index: its start is zero. -/
theorem start_rowBlock1 (j : (⟨2, ![R, Q]⟩ : Shape).Idx) (idx : IVec ⟨1, ![1]⟩ w) : d.start j idx 1 = 0 := by
  obtain ⟨uw, iw, sd, iv, wf⟩ := d
  subst h1 h2 h3 h4
  unfold ScatterDims.start
  rw [dif_neg]
  simp

include h1 h2 h3 h4 in
/-- Both axes are window axes: on the row axis the window coordinate is the update's row. -/
theorem window_rowBlock0 (j : (⟨2, ![R, Q]⟩ : Shape).Idx) : d.window j 0 = (j 0).val := by
  obtain ⟨uw, iw, sd, iv, wf⟩ := d
  subst h1 h2 h3 h4
  unfold ScatterDims.window
  rw [dif_pos (by simp [ScatterDims.sKept, Shape.kept])]
  rfl

include h1 h2 h3 h4 in
/-- On the lane axis the window coordinate is the update's lane. -/
theorem window_rowBlock1 (j : (⟨2, ![R, Q]⟩ : Shape).Idx) : d.window j 1 = (j 1).val := by
  obtain ⟨uw, iw, sd, iv, wf⟩ := d
  subst h1 h2 h3 h4
  unfold ScatterDims.window
  rw [dif_pos (by simp [ScatterDims.sKept, Shape.kept])]
  rfl

include h1 h2 h3 h4 in
/-- Update `(r, q)` lands at `(p, q')` exactly when the start row, read signed, plus `r` is `p` and `q' = q`. -/
theorem resultIdx?_rowBlock (j : (⟨2, ![R, Q]⟩ : Shape).Idx) (idx : IVec ⟨1, ![1]⟩ w) (i : (⟨2, ![P, Q]⟩ : Shape).Idx) :
    d.resultIdx? j idx = some i ↔ (idx (ix1 0)).toInt + ((j 0).val : Int) = ((i 0).val : Int) ∧ (i 1).val = (j 1).val := by
  have hs0 := start_rowBlock0 d h1 h2 h3 h4 j idx
  have hs1 := start_rowBlock1 d h1 h2 h3 h4 j idx
  have hw0 := window_rowBlock0 d h1 h2 h3 h4 j
  have hw1 := window_rowBlock1 d h1 h2 h3 h4 j
  have hi0 : (i 0).val < P := (i 0).isLt
  have hi1 : (i 1).val < Q := (i 1).isLt
  have hj1 : (j 1).val < Q := (j 1).isLt
  unfold ScatterDims.resultIdx?
  constructor
  · intro h
    split at h
    · rename_i hin
      have e := Option.some.inj h
      have e0 := congrArg Fin.val (congrFun e 0)
      have e1 := congrArg Fin.val (congrFun e 1)
      simp only [hs0, hw0, hs1, hw1] at e0 e1
      have g0 := (hin 0).1
      rw [hs0, hw0] at g0
      refine ⟨by omega, by omega⟩
    · exact absurd h (by simp)
  · rintro ⟨e0, e1⟩
    have hin : ∀ a, 0 ≤ d.start j idx a + ↑(d.window j a) ∧ d.start j idx a + ↑(d.window j a) < (⟨2, ![P, Q]⟩ : Shape).size a := by
      intro a
      match a with
      | ⟨0, _⟩ =>
        show 0 ≤ d.start j idx 0 + ↑(d.window j 0) ∧ d.start j idx 0 + ↑(d.window j 0) < ((P : Nat) : Int)
        rw [hs0, hw0, e0]; omega
      | ⟨1, _⟩ =>
        show 0 ≤ d.start j idx 1 + ↑(d.window j 1) ∧ d.start j idx 1 + ↑(d.window j 1) < ((Q : Nat) : Int)
        rw [hs1, hw1]; omega
    rw [dif_pos hin]
    congr 1
    funext a
    apply Fin.ext
    match a with
    | ⟨0, _⟩ =>
      show (d.start j idx 0 + ↑(d.window j 0)).toNat = (i 0).val
      rw [hs0, hw0, e0]; omega
    | ⟨1, _⟩ =>
      show (d.start j idx 1 + ↑(d.window j 1)).toNat = (i 1).val
      rw [hs1, hw1]; omega

end RowBlock

end Cert.LibScatter
-- ==== Proof.LibScatterShapes.lean ====
/-
  The landing index of an update for two scatter layouts, in closed form.

  * One scatter axis into a vector (`resultIdx?_vec`): the operand is a vector of length `N`, each of the `M` scalar
    updates carries one start index; update `j` lands at `i` exactly when its start index, read as a signed integer, is
    `i` — a start index outside `[0, N)` lands nowhere.
  * A pair of start indices selecting a (row, column) cell per batch row (`resultIdx?_cells`): the operand is
    `B × R × C`, the updates are `B × K`, and update `(b, k)` lands at `(b, r, c)` exactly when the `k`-th pair of start
    indices is `(r, c)`.
-/
import Idealize.ShloMosaic.PureOps.ShapeOps
import Idealize.ShloMosaic.PureOps.Dims
import Idealize.ShloMosaic.Lib.ValueIdx

namespace Cert.LibScatter

open Idealize.ShloMosaic Idealize.ShloMosaic.ValueIdx

variable {N M B R C K w : Nat}

section Vec

variable (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1)

include h1 h2 h3 h4 in
/-- The start of update `j` on the vector's one axis is its start index, read signed. -/
theorem start_vec (j : (⟨1, ![M]⟩ : Shape).Idx) (idx : IVec ⟨2, ![M, 1]⟩ w) :
    d.start j idx 0 = (idx (ix2 (j 0) 0)).toInt := by
  obtain ⟨uw, iw, sd, iv, wf⟩ := d
  subst h1 h2 h3 h4
  unfold ScatterDims.start
  simp only [List.mem_singleton, dite_true]
  congr 1
  congr 1
  funext b
  unfold ScatterDims.siIdx
  match b with
  | ⟨0, _⟩ => simp; rfl
  | ⟨1, _⟩ => simp; rfl

include h1 h2 h3 h4 in
/-- The vector's axis is an inserted one: the window coordinate is zero. -/
theorem window_vec (j : (⟨1, ![M]⟩ : Shape).Idx) : d.window j 0 = 0 := by
  obtain ⟨uw, iw, sd, iv, wf⟩ := d
  subst h1 h2 h3 h4
  unfold ScatterDims.window
  rw [dif_neg]
  simp [ScatterDims.sKept, Shape.kept]

include h1 h2 h3 h4 in
/-- Update `j` lands at `i` exactly when its start index, read signed, is `i`. -/
theorem resultIdx?_vec (j : (⟨1, ![M]⟩ : Shape).Idx) (idx : IVec ⟨2, ![M, 1]⟩ w) (i : (⟨1, ![N]⟩ : Shape).Idx) :
    d.resultIdx? j idx = some i ↔ (idx (ix2 (j 0) 0)).toInt = ((i 0).val : Int) := by
  have hs := start_vec d h1 h2 h3 h4 j idx
  have hw := window_vec d h1 h2 h3 h4 j
  have hi : (i 0).val < N := (i 0).isLt
  unfold ScatterDims.resultIdx?
  constructor
  · intro h
    split at h
    · rename_i hin
      have := congrFun (Option.some.inj h) 0
      have hv := congrArg Fin.val this
      simp only [hs, hw] at hv
      have h0 := (hin 0).1
      rw [hs, hw] at h0
      omega
    · exact absurd h (by simp)
  · intro h
    have hin : ∀ a, 0 ≤ d.start j idx a + ↑(d.window j a) ∧ d.start j idx a + ↑(d.window j a) < (⟨1, ![N]⟩ : Shape).size a := by
      intro a
      have : a = 0 := Subsingleton.elim _ _
      subst this
      rw [hs, hw, h]
      constructor
      · omega
      · show ((i 0).val : Int) + ((0 : Nat) : Int) < ((N : Nat) : Int)
        omega
    rw [dif_pos hin]
    congr 1
    funext a
    have : a = 0 := Subsingleton.elim _ _
    subst this
    apply Fin.ext
    simp only [hs, hw, h]
    omega

end Vec

section Cells

variable (d : ScatterDims ⟨3, ![B, R, C]⟩ ⟨2, ![K, 2]⟩ ⟨2, ![B, K]⟩)
    (h1 : d.updateWindowDims = [0]) (h2 : d.insertedWindowDims = [1, 2]) (h3 : d.scatterDimsToOperandDims = [1, 2])
    (h4 : d.indexVectorDim = 1)

include h1 h2 h3 h4 in
/-- The batch axis has no start index: its start is zero. -/
theorem start_cells0 (j : (⟨2, ![B, K]⟩ : Shape).Idx) (idx : IVec ⟨2, ![K, 2]⟩ w) : d.start j idx 0 = 0 := by
  obtain ⟨uw, iw, sd, iv, wf⟩ := d
  subst h1 h2 h3 h4
  unfold ScatterDims.start
  rw [dif_neg]
  simp

include h1 h2 h3 h4 in
/-- The row's start is the first component of the update's pair of start indices, read signed. -/
theorem start_cells1 (j : (⟨2, ![B, K]⟩ : Shape).Idx) (idx : IVec ⟨2, ![K, 2]⟩ w) :
    d.start j idx 1 = (idx (ix2 (j 1) 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The column's start is the second component of the update's pair of start indices, read signed. -/
theorem start_cells2 (j : (⟨2, ![B, K]⟩ : Shape).Idx) (idx : IVec ⟨2, ![K, 2]⟩ w) :
    d.start j idx 2 = (idx (ix2 (j 1) 1)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The batch axis is the window axis: the window coordinate is the update's batch coordinate. -/
theorem window_cells0 (j : (⟨2, ![B, K]⟩ : Shape).Idx) : d.window j 0 = (j 0).val := by
  obtain ⟨uw, iw, sd, iv, wf⟩ := d
  subst h1 h2 h3 h4
  unfold ScatterDims.window
  rw [dif_pos (by simp [ScatterDims.sKept, Shape.kept])]
  rfl

include h1 h2 h3 h4 in
/-- Rows and columns are inserted axes: their window coordinate is zero. -/
theorem window_cells1 (j : (⟨2, ![B, K]⟩ : Shape).Idx) : d.window j 1 = 0 := by
  obtain ⟨uw, iw, sd, iv, wf⟩ := d
  subst h1 h2 h3 h4
  unfold ScatterDims.window
  rw [dif_neg]
  simp [ScatterDims.sKept, Shape.kept]

include h1 h2 h3 h4 in
theorem window_cells2 (j : (⟨2, ![B, K]⟩ : Shape).Idx) : d.window j 2 = 0 := by
  obtain ⟨uw, iw, sd, iv, wf⟩ := d
  subst h1 h2 h3 h4
  unfold ScatterDims.window
  rw [dif_neg]
  simp [ScatterDims.sKept, Shape.kept]

include h1 h2 h3 h4 in
/-- Update `(b, k)` lands at `(b', r, c)` exactly when `b' = b` and the `k`-th pair of start indices, read signed, is
    `(r, c)`. -/
theorem resultIdx?_cells (j : (⟨2, ![B, K]⟩ : Shape).Idx) (idx : IVec ⟨2, ![K, 2]⟩ w) (i : (⟨3, ![B, R, C]⟩ : Shape).Idx) :
    d.resultIdx? j idx = some i ↔
      (i 0).val = (j 0).val ∧ (idx (ix2 (j 1) 0)).toInt = ((i 1).val : Int) ∧ (idx (ix2 (j 1) 1)).toInt = ((i 2).val : Int) := by
  have hs0 := start_cells0 d h1 h2 h3 h4 j idx
  have hs1 := start_cells1 d h1 h2 h3 h4 j idx
  have hs2 := start_cells2 d h1 h2 h3 h4 j idx
  have hw0 := window_cells0 d h1 h2 h3 h4 j
  have hw1 := window_cells1 d h1 h2 h3 h4 j
  have hw2 := window_cells2 d h1 h2 h3 h4 j
  have hi0 : (i 0).val < B := (i 0).isLt
  have hi1 : (i 1).val < R := (i 1).isLt
  have hi2 : (i 2).val < C := (i 2).isLt
  have hj0 : (j 0).val < B := (j 0).isLt
  unfold ScatterDims.resultIdx?
  constructor
  · intro h
    split at h
    · rename_i hin
      have e := Option.some.inj h
      have e0 := congrArg Fin.val (congrFun e 0)
      have e1 := congrArg Fin.val (congrFun e 1)
      have e2 := congrArg Fin.val (congrFun e 2)
      simp only [hs0, hw0, hs1, hw1, hs2, hw2] at e0 e1 e2
      have g1 := (hin 1).1
      have g2 := (hin 2).1
      rw [hs1, hw1] at g1
      rw [hs2, hw2] at g2
      refine ⟨by omega, by omega, by omega⟩
    · exact absurd h (by simp)
  · rintro ⟨e0, e1, e2⟩
    have hin : ∀ a, 0 ≤ d.start j idx a + ↑(d.window j a) ∧ d.start j idx a + ↑(d.window j a) < (⟨3, ![B, R, C]⟩ : Shape).size a := by
      intro a
      match a with
      | ⟨0, _⟩ =>
        show 0 ≤ d.start j idx 0 + ↑(d.window j 0) ∧ d.start j idx 0 + ↑(d.window j 0) < ((B : Nat) : Int)
        rw [hs0, hw0]; omega
      | ⟨1, _⟩ =>
        show 0 ≤ d.start j idx 1 + ↑(d.window j 1) ∧ d.start j idx 1 + ↑(d.window j 1) < ((R : Nat) : Int)
        rw [hs1, hw1, e1]; omega
      | ⟨2, _⟩ =>
        show 0 ≤ d.start j idx 2 + ↑(d.window j 2) ∧ d.start j idx 2 + ↑(d.window j 2) < ((C : Nat) : Int)
        rw [hs2, hw2, e2]; omega
    rw [dif_pos hin]
    congr 1
    funext a
    apply Fin.ext
    match a with
    | ⟨0, _⟩ =>
      show (d.start j idx 0 + ↑(d.window j 0)).toNat = (i 0).val
      rw [hs0, hw0]; omega
    | ⟨1, _⟩ =>
      show (d.start j idx 1 + ↑(d.window j 1)).toNat = (i 1).val
      rw [hs1, hw1, e1]; omega
    | ⟨2, _⟩ =>
      show (d.start j idx 2 + ↑(d.window j 2)).toNat = (i 2).val
      rw [hs2, hw2, e2]; omega

end Cells

end Cert.LibScatter
-- ==== Proof.LibScatterSums.lean ====
/-
  The host's accumulating scatter of M scalars into a vector of length N, read at one entry.

  Over the extended reals the accumulating scatter holds, at every operand index, the operand's element plus the sum
  of the updates that land there. With one start index per update and the vector's one axis inserted, update n lands
  at k exactly when its start index, read signed, is k; so entry k is the operand's entry plus the sum over all n of
  "update n if index n is k, else nothing" — a start index outside [0, N) contributes to no entry.
-/
import Idealize.ShloMosaic.PureOps.Ideal
import Idealize.ShloMosaic.Lib.ValueIdx
import proofs.«109403_j12893491822678_2_alg».proof.Proof.LibScatterShapes

noncomputable section

open scoped BigOperators

namespace Cert.LibScatter

open Idealize.ShloMosaic Idealize.ShloMosaic.ValueIdx

variable {N M w : Nat}

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum over the indices of a vector is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- Entry k of the accumulating scatter of M scalars into a vector: the operand's entry plus the updates whose
    start index is k. -/
theorem hostScatterAdd_vec_apply (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![M, 1]⟩ w) (upd : (⟨1, ![M]⟩ : Shape).Idx → EReal)
    (k : Fin N) :
    Ideal.hostScatterAdd d x idx upd (ix1 k)
      = x (ix1 k) + ∑ n : Fin M, if (idx (ix2 n 0)).toInt = (k.val : Int) then upd (ix1 n) else 0 := by
  unfold Ideal.hostScatterAdd
  refine congrArg (x (ix1 k) + ·) ?_
  rw [Finset.sum_filter, sum_idx1]
  refine Finset.sum_congr rfl fun n _ => ?_
  exact if_congr (resultIdx?_vec d h1 h2 h3 h4 (ix1 n) idx (ix1 k)) rfl rfl

end Cert.LibScatter

end
-- ==== Proof.LibScatterIdeal.lean ====
/-
  The host's accumulating scatter, read at the extended reals, is the exact sum: every operand element plus the
  updates that land on it, whatever the shapes and the dimension numbers.
-/
import Idealize.ShloMosaic.PureOps.Contract
import Idealize.ShloMosaic.PureOps.Ideal

noncomputable section

namespace Cert.LibScatter

open Idealize.ShloMosaic

/-- Over the extended reals the accumulating scatter is the operand plus the sum of the updates landing there. -/
theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

end Cert.LibScatter

end
-- ==== Proof.KHostPure.lean ====
/-
  The kernel's host operations, read at one index.

  Every host operation around the two grids moves or combines entries in a way that can be said entry by entry:
  a slice and a reshape of the edge array give edge e's source and target words; the column of gather indices holds
  edge e's wrapped source word; the two transposes swap coordinates and the two bias rows hold the bias vectors.
  The accumulating scatter of ones at the target words, from zero, counts the edges landing on a node; adding one and
  taking the reciprocal square root gives the node's normalisation.  The accumulating scatter of the gathered rows at
  the target words, from zero, is the sum over the edges landing on node k of the row the edge's source word picks:
  a gather clamps the (wrapped, signed) word into [0, 99999], which is exactly the picked row.
-/
import proofs.«109403_j12893491822678_2_alg».proof.Proof.KHostDefs
import proofs.«109403_j12893491822678_2_alg».proof.Proof.Spec
import proofs.«109403_j12893491822678_2_alg».proof.Proof.LibGather
import proofs.«109403_j12893491822678_2_alg».proof.Proof.LibScatterRows
import proofs.«109403_j12893491822678_2_alg».proof.Proof.LibScatterSums
import proofs.«109403_j12893491822678_2_alg».proof.Proof.LibScatterIdeal
import proofs.«109403_j12893491822678_2_alg».proof.Proof.LibRowVector
import proofs.«109403_j12893491822678_2_alg».proof.Proof.LibKeepdims
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelIdeal.KHost

open Cert.KernelIdeal Idealize.ShloMosaic Idealize.ShloMosaic.ValueIdx

variable [Facts]
open Facts₀ Facts

/-! ## Layout: constants, columns, slices -/

/-- The host's reciprocal square root acts entry by entry. -/
theorem hostRsqrt_apply {s : Shape} {φ : FTy} (v : FVec Ideal s φ) (i : s.Idx) : Host.rsqrt v i = Ideal.rsqrt (v i) := rfl

/-- A float constant copied to every index of an array reads the constant's value everywhere. -/
theorem bcast_const_apply (t : Shape) (dims : Fin S_.rank → Fin t.rank) (hb : S_.BroadcastsInDim t dims)
    (b : BitVec (FTy.bits .f32)) (j : t.Idx) :
    broadcastInDim t dims hb (constant (F := Ideal) S_ .f32 b) j = Ideal.ofBits .f32 b :=
  broadcastInDim_apply dims hb _ j ix0 (fun a => a.elim0)

/-- A word constant copied to every index of an array reads the word everywhere. -/
theorem bcast_constI_apply (t : Shape) (dims : Fin S_.rank → Fin t.rank) (hb : S_.BroadcastsInDim t dims)
    (b : BitVec 32) (j : t.Idx) : broadcastInDim t dims hb (constantI S_ 32 b) j = b :=
  broadcastInDim_apply dims hb _ j ix0 (fun a => a.elim0)

/-- A vector over the edges laid out as a column reads, at (e, 0), the vector's entry e. -/
theorem col_of_vec {α : Type} (v : S1600000.Idx → α) (e : Fin 1600000) (u : Fin 1) :
    broadcastInDim S1600000x1 ![0] bcast_S1600000_S1600000x1_0 v (ix2 e u) = v (ix1 e) :=
  broadcastInDim_apply _ bcast_S1600000_S1600000x1_0 v (ix2 e u) (ix1 e) (fun a => match a with
    | ⟨0, _⟩ => by show e.val = if (1600000 : Nat) = 1 then 0 else e.val; rw [if_neg (by decide)])

/-- Row 1 of the edge array, as a vector: edge e's target word. -/
theorem colK_apply (x1 : IVec S2x1600000 32) (e : Fin 1600000) : colK x1 (ix1 e) = Cert.Gcn.tgt x1 e := by
  unfold colK Cert.Gcn.tgt
  refine (shapeCast_apply _ shapeCasts_S1x1600000_S1600000 (ix1 e) (ix2 (0 : Fin 1) e) (by
    rw [Shape.rowMajor_val_two, Shape.rowMajor_val_one]
    show 0 * 1600000 + e.val = e.val
    omega)).trans ?_
  exact extractStridedSlice_apply ![1, 0] x1 slices_S2x1600000_S1x1600000_1_0 (ix2 (0 : Fin 1) e) (ix2 (1 : Fin 2) e)
    (fun a => match a with
      | ⟨0, _⟩ => by show (1 : Nat) = 1 + 0; rfl
      | ⟨1, _⟩ => by show e.val = 0 + e.val; omega)

/-- Row 0 of the edge array, as a vector: edge e's source word. -/
theorem rowK_apply (x1 : IVec S2x1600000 32) (e : Fin 1600000) : rowK x1 (ix1 e) = Cert.Gcn.src x1 e := by
  unfold rowK Cert.Gcn.src
  refine (shapeCast_apply _ shapeCasts_S1x1600000_S1600000 (ix1 e) (ix2 (0 : Fin 1) e) (by
    rw [Shape.rowMajor_val_two, Shape.rowMajor_val_one]
    show 0 * 1600000 + e.val = e.val
    omega)).trans ?_
  exact extractStridedSlice_apply ![0, 0] x1 slices_S2x1600000_S1x1600000_0_0 (ix2 (0 : Fin 1) e) (ix2 (0 : Fin 2) e)
    (fun a => match a with
      | ⟨0, _⟩ => by show (0 : Nat) = 0 + 0; rfl
      | ⟨1, _⟩ => by show e.val = 0 + e.val; omega)

/-- The gather's start index of edge e: the source word, moved up by the number of nodes when negative. -/
theorem pickIdx_apply (x1 : IVec S2x1600000 32) (e : Fin 1600000) :
    pickIdx x1 (ix2 e (0 : Fin 1)) = Cert.Gcn.wrap (Cert.Gcn.src x1 e) := by
  unfold pickIdx
  rw [col_of_vec, select_apply]
  unfold cmpi addi
  rw [bcast_constI_apply, bcast_constI_apply, rowK_apply]
  rfl

/-! ## The normalisation column -/

/-- Entry k of the normalisation column: the reciprocal square root of one plus the number of edges landing on k. -/
theorem dinvCol_apply (x1 : IVec S2x1600000 32) (k : Fin 100000) :
    dinvCol x1 (ix2 k (0 : Fin 1)) = Cert.Gcn.dinvK x1 k := by
  unfold dinvCol Cert.Gcn.dinvK Cert.Gcn.degK
  refine (Keepdims.shapeCast_a_a1_apply _ shapeCasts_S100000_S100000x1 k 0).trans ?_
  rw [hostRsqrt_apply, addf_apply, Cert.LibScatter.scatterAdd_ideal,
    Cert.LibScatter.hostScatterAdd_vec_apply scatter_S100000_S1600000x1_S1600000_n_0_0_1 rfl rfl rfl rfl,
    bcast_const_apply, bcast_const_apply, Ideal.ofBits_zero_f32, Ideal.ofBits_one_f32, zero_add]
  refine congrArg Ideal.rsqrt (congrArg (· + (1 : EReal)) (Finset.sum_congr rfl fun e _ => ?_))
  rw [col_of_vec, colK_apply, bcast_const_apply, Ideal.ofBits_one_f32]

/-! ## The aggregated messages -/

/-- Entry (k, l) of the aggregate: the sum, over the edges landing on k, of lane l of the row the edge's source word
    picks. -/
theorem aggArr_apply (x1 : IVec S2x1600000 32) (hs : FVec Ideal S100000x128 .bf16) (k : Fin 100000) (l : Fin 128) :
    aggArr x1 hs (ix2 k l) = ∑ e : Fin 1600000, if (Cert.Gcn.tgt x1 e).toInt = (k.val : Int)
      then hs (ix2 (Cert.Gcn.pick (Cert.Gcn.src x1 e)) l) else 0 := by
  unfold aggArr
  rw [Cert.LibScatter.scatterAdd_ideal,
    Cert.LibScatter.hostScatterAdd_rows_apply scatter_S100000x128_S1600000x1_S1600000x128_1_0_0_1 rfl rfl rfl rfl,
    bcast_const_apply, Ideal.ofBits_zero_f32, zero_add]
  refine Finset.sum_congr rfl fun e _ => ?_
  rw [col_of_vec, colK_apply, extf_apply,
    Cert.LibGather.gather_rows_apply gather_S100000x128_S1600000x1_S1600000x128_1_0_n_n_0_1_1128 rfl rfl rfl rfl rfl rfl rfl
      (by omega)]
  -- the gather's clamped row is the picked row
  refine congrArg (fun r : Fin 100000 => if (Cert.Gcn.tgt x1 e).toInt = (k.val : Int) then hs (ix2 r l) else 0)
    (Fin.ext ?_)
  show min (pickIdx x1 (ix2 e 0)).toInt.toNat (100000 - 1) = min (Cert.Gcn.wrap (Cert.Gcn.src x1 e)).toInt.toNat 99999
  rw [pickIdx_apply]

/-! ## Weights and biases -/

/-- The transposed encoder weight at (q, l) is the weight at (l, q). -/
theorem wEncT_apply (x2 : FVec Ideal S128x256 .f32) (q : Fin 256) (l : Fin 128) : wEncT x2 (ix2 q l) = x2 (ix2 l q) :=
  transpose_apply [1, 0] x2 transposes_S128x256_S256x128_1_0 (ix2 q l) (ix2 l q) (fun b => match b with
    | ⟨0, _⟩ => rfl
    | ⟨1, _⟩ => rfl)

/-- The transposed decoder weight at (l, j) is the weight at (j, l). -/
theorem wDecT_apply (x4 : FVec Ideal S256x128 .f32) (l : Fin 128) (j : Fin 256) : wDecT x4 (ix2 l j) = x4 (ix2 j l) :=
  transpose_apply [1, 0] x4 transposes_S256x128_S128x256_1_0 (ix2 l j) (ix2 j l) (fun b => match b with
    | ⟨0, _⟩ => rfl
    | ⟨1, _⟩ => rfl)

/-- The encoder bias laid out as a row. -/
theorem bEncRow_apply (x3 : FVec Ideal S128 .f32) (l : Fin 128) : bEncRow x3 (ix2 (0 : Fin 1) l) = x3 (ix1 l) :=
  Cert.RowVector.shapeCast_row x3 shapeCasts_S128_S1x128 l

/-- The decoder bias laid out as a row. -/
theorem bDecRow_apply (x5 : FVec Ideal S256 .f32) (j : Fin 256) : bDecRow x5 (ix2 (0 : Fin 1) j) = x5 (ix1 j) :=
  Cert.RowVector.shapeCast_row x5 shapeCasts_S256_S1x256 j

end Cert.KernelIdeal.KHost

end
-- ==== Proof.KValue.lean ====
/-
  The idealized kernel's two results as functions of its arguments.

  Reading the four stretches back: the encoder's raw code is h = x · W_encᵀ and its scaled code h · dinv; the
  aggregated messages are, at (k, l), the sum over the edges landing on k of the scaled code's row picked by the
  edge's source; the decoder then forms max (dinv k · agg + (dinv k · dinv k) · h + b_enc, 0) — the kernel's form of the
  hidden code — and its product with W_decᵀ plus b_dec.
-/
import proofs.«109403_j12893491822678_2_alg».proof.Proof.KMem
import proofs.«109403_j12893491822678_2_alg».proof.Proof.KHostPure
import proofs.«109403_j12893491822678_2_alg».proof.Proof.Spec

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-! ## The encoder's inputs and outputs -/

theorem Xa_eq (c : Dev nD) : KRegion.Xa (V1 m ρ) c = (m ((c : Thread nD τ).loc main_arg0)) := KMem.V1_arg0 m ρ c
theorem Wt_eq (c : Dev nD) : KRegion.Wt (V1 m ρ) c = KHost.wEncT (m ((c : Thread nD τ).loc main_arg2)) := KMem.V1_v12 m ρ c
theorem Dc0_eq (c : Dev nD) : KRegion.Dc (V1 m ρ) c = KHost.dinvCol (m ((c : Thread nD τ).loc main_arg1)) := KMem.V1_v11 m ρ c

/-- The raw code is h. -/
theorem hraw_eq (c : Dev nD) (k : Fin 100000) (l : Fin 128) :
    KRegion.hraw (V1 m ρ) c k l = Cert.Gcn.h (m ((c : Thread nD τ).loc main_arg0)) (m ((c : Thread nD τ).loc main_arg2)) k l := by
  unfold KRegion.hraw Cert.Gcn.h
  rw [Xa_eq, Wt_eq]
  exact Finset.sum_congr rfl fun q _ => by rw [KHost.wEncT_apply]

/-- The scaled code is h · dinv. -/
theorem hscaled_eq (c : Dev nD) (k : Fin 100000) (l : Fin 128) :
    KRegion.hscaled (V1 m ρ) c k l = Cert.Gcn.h (m ((c : Thread nD τ).loc main_arg0)) (m ((c : Thread nD τ).loc main_arg2)) k l * Cert.Gcn.dinvK (m ((c : Thread nD τ).loc main_arg1)) k := by
  unfold KRegion.hscaled
  rw [hraw_eq, Dc0_eq, KHost.dinvCol_apply]

/-! ## The decoder's inputs -/

theorem Ag_eq (c : Dev nD) : KDecoder.Ag (V3 m ρ) c = KHost.aggArr (m ((c : Thread nD τ).loc main_arg1)) (KRegion.G4 (V1 m ρ) c) := KMem.V3_v24 m ρ c
theorem Hr_eq (c : Dev nD) : KDecoder.Hr (V3 m ρ) c = KRegion.G3 (V1 m ρ) c := KMem.V3_v13_0 m ρ c
theorem Dc_eq (c : Dev nD) : KDecoder.Dc (V3 m ρ) c = KHost.dinvCol (m ((c : Thread nD τ).loc main_arg1)) := KMem.V3_v11 m ρ c
theorem Be_eq (c : Dev nD) : KDecoder.Be (V3 m ρ) c = KHost.bEncRow (m ((c : Thread nD τ).loc main_arg3)) := KMem.V3_v25 m ρ c
theorem Wd_eq (c : Dev nD) : KDecoder.Wd (V3 m ρ) c = KHost.wDecT (m ((c : Thread nD τ).loc main_arg4)) := KMem.V3_v26 m ρ c
theorem Bd_eq (c : Dev nD) : KDecoder.Bd (V3 m ρ) c = KHost.bDecRow (m ((c : Thread nD τ).loc main_arg5)) := KMem.V3_v27 m ρ c

/-- The hidden code is the kernel's form of the specification. -/
theorem zc_eq (c : Dev nD) (k : Fin 100000) (l : Fin 128) :
    KDecoder.zc (V3 m ρ) c k l
      = Cert.Gcn.zOf (m ((c : Thread nD τ).loc main_arg3)) (Cert.Gcn.preK (m ((c : Thread nD τ).loc main_arg0)) (m ((c : Thread nD τ).loc main_arg1)) (m ((c : Thread nD τ).loc main_arg2))) k l := by
  have e3 : KRegion.G3 (V1 m ρ) c (ix2 k l) = Cert.Gcn.h (m ((c : Thread nD τ).loc main_arg0)) (m ((c : Thread nD τ).loc main_arg2)) k l := hraw_eq m ρ c k l
  have e4 : ∀ n : Fin 100000, KRegion.G4 (V1 m ρ) c (ix2 n l)
      = Cert.Gcn.h (m ((c : Thread nD τ).loc main_arg0)) (m ((c : Thread nD τ).loc main_arg2)) n l * Cert.Gcn.dinvK (m ((c : Thread nD τ).loc main_arg1)) n := fun n => hscaled_eq m ρ c n l
  unfold KDecoder.zc Cert.Gcn.zOf Cert.Gcn.preK Cert.Gcn.aggK
  rw [Ag_eq, Hr_eq, Dc_eq, Be_eq, KHost.dinvCol_apply, KHost.aggArr_apply, KHost.bEncRow_apply, e3]
  simp only [e4]

/-- The reconstruction is the decoding of that hidden code. -/
theorem xrc_eq (c : Dev nD) (k : Fin 100000) (j : Fin 256) :
    KDecoder.xrc (V3 m ρ) c k j
      = Cert.Gcn.xrOf (m ((c : Thread nD τ).loc main_arg4)) (m ((c : Thread nD τ).loc main_arg5))
          (Cert.Gcn.zOf (m ((c : Thread nD τ).loc main_arg3)) (Cert.Gcn.preK (m ((c : Thread nD τ).loc main_arg0)) (m ((c : Thread nD τ).loc main_arg1)) (m ((c : Thread nD τ).loc main_arg2)))) k j := by
  unfold KDecoder.xrc Cert.Gcn.xrOf
  rw [Wd_eq, Bd_eq, KHost.bDecRow_apply]
  refine congrArg (· + (m ((c : Thread nD τ).loc main_arg5)) (ix1 j)) (Finset.sum_congr rfl fun l _ => ?_)
  rw [zc_eq, KHost.wDecT_apply]

/-! ## The two results -/

/-- The first result buffer ends holding the hidden code. -/
theorem out_z (c : Dev nD) (k : Fin 100000) (l : Fin 128) :
    (W4 m ρ c (Proc.devRef .tc main_v28_0) : S100000x128.Idx → EReal) (ix2 k l)
      = Cert.Gcn.zOf (m ((c : Thread nD τ).loc main_arg3)) (Cert.Gcn.preK (m ((c : Thread nD τ).loc main_arg0)) (m ((c : Thread nD τ).loc main_arg1)) (m ((c : Thread nD τ).loc main_arg2))) k l := by
  rw [KMem.W4_v28_0]
  exact zc_eq m ρ c k l

/-- The second result buffer ends holding the reconstruction. -/
theorem out_xr (c : Dev nD) (k : Fin 100000) (j : Fin 256) :
    (W4 m ρ c (Proc.devRef .tc main_v28_1) : S100000x256.Idx → EReal) (ix2 k j)
      = Cert.Gcn.xrOf (m ((c : Thread nD τ).loc main_arg4)) (m ((c : Thread nD τ).loc main_arg5))
          (Cert.Gcn.zOf (m ((c : Thread nD τ).loc main_arg3)) (Cert.Gcn.preK (m ((c : Thread nD τ).loc main_arg0)) (m ((c : Thread nD τ).loc main_arg1)) (m ((c : Thread nD τ).loc main_arg2)))) k j := by
  rw [KMem.W4_v28_1]
  exact xrc_eq m ρ c k j

end Cert.KernelIdeal.KValue

end
-- ==== Proof.RefWords.lean ====
/-
  The reference's edge words. The reference appends one self-loop per node to the edge list: extended edge n is edge n
  for n < 1600000 and the loop at node n − 1600000 after that. Its source and target words are the concatenations of a
  row of the edge array with the node numbers 0 … 99999, and before a word indexes a gather a negative word is moved
  up by the number of nodes. This module reads those stages at extended edge n.
-/
import proofs.«109403_j12893491822678_2_alg».proof.Proof.Spec
import proofs.«109403_j12893491822678_2_alg».proof.Proof.Gen.ReferenceIdeal.Read

noncomputable section

namespace Cert.Gcn

open Idealize.ShloMosaic Idealize.ShloMosaic.ValueIdx Cert.ReferenceIdeal Cert.ReferenceIdeal.Gen Cert.ReferenceIdeal.Read

variable (x1 : (⟨S2x1600000, .i32⟩ : BufTy).Contents (Elt Ideal))

/-- Row 0 of the edge array, flattened, at edge e: the source word. -/
theorem ref_v4 (e : Fin 1600000) : val_main_v4 (F := Ideal) x1 (ix1 e) = src x1 e := by
  rw [val_main_v4_apply, val_main_v3_apply]
  unfold src
  congr 1
  funext a
  refine Fin.ext ?_
  match a with
  | ⟨0, _⟩ => rfl
  | ⟨1, _⟩ => show e.val % 1600000 = e.val; omega

/-- Row 1 of the edge array, flattened, at edge e: the target word. -/
theorem ref_v7 (e : Fin 1600000) : val_main_v7 (F := Ideal) x1 (ix1 e) = tgt x1 e := by
  rw [val_main_v7_apply, val_main_v6_apply]
  unfold tgt
  congr 1
  funext a
  refine Fin.ext ?_
  match a with
  | ⟨0, _⟩ => rfl
  | ⟨1, _⟩ => show e.val % 1600000 = e.val; omega

/-- The extended source words: the edges' source words, then the node numbers. -/
theorem ref_srcR (n : Fin 1700000) : val_main_v5 (F := Ideal) x1 (ix1 n) = srcR x1 n := by
  unfold val_main_v5 srcR
  by_cases hn : n.val < 1600000
  · rw [dif_pos hn, ← ref_v4]
    exact concatenate_pair_apply_left 0 _ _ concatenates_S1600000_S100000_S1700000_d0 (ix1 n) rfl (ix1 ⟨n.val, hn⟩)
      (fun b => match b with | ⟨0, _⟩ => rfl)
  · rw [dif_neg hn]
    -- past the edges, extended edge n is the loop at node m = n − 1600000
    obtain ⟨m, hm⟩ : ∃ m, n.val - 1600000 = m := ⟨_, rfl⟩
    rw [hm]
    have hlt : m < 100000 := by have := n.isLt; omega
    have hadd : m + 1600000 = n.val := by omega
    refine (concatenate_pair_apply_right 0 _ _ concatenates_S1600000_S100000_S1700000_d0 (ix1 n) rfl rfl
      (ix1 ⟨m, hlt⟩) (fun b hb => absurd (Fin.ext (by have hb1 : b.val < 1 := b.isLt; show b.val = 0; omega)) hb) hadd).trans ?_
    rw [val_main_v2_apply]

/-- The extended target words: the edges' target words, then the node numbers. -/
theorem ref_tgtR (n : Fin 1700000) : val_main_v8 (F := Ideal) x1 (ix1 n) = tgtR x1 n := by
  unfold val_main_v8 tgtR
  by_cases hn : n.val < 1600000
  · rw [dif_pos hn, ← ref_v7]
    exact concatenate_pair_apply_left 0 _ _ concatenates_S1600000_S100000_S1700000_d0 (ix1 n) rfl (ix1 ⟨n.val, hn⟩)
      (fun b => match b with | ⟨0, _⟩ => rfl)
  · rw [dif_neg hn]
    -- past the edges, extended edge n is the loop at node m = n − 1600000
    obtain ⟨m, hm⟩ : ∃ m, n.val - 1600000 = m := ⟨_, rfl⟩
    rw [hm]
    have hlt : m < 100000 := by have := n.isLt; omega
    have hadd : m + 1600000 = n.val := by omega
    refine (concatenate_pair_apply_right 0 _ _ concatenates_S1600000_S100000_S1700000_d0 (ix1 n) rfl rfl
      (ix1 ⟨m, hlt⟩) (fun b hb => absurd (Fin.ext (by have hb1 : b.val < 1 := b.isLt; show b.val = 0; omega)) hb) hadd).trans ?_
    rw [val_main_v2_apply]

/-- A column of words read at (n, 0) is the vector's word n. -/
theorem col_idx (n : Fin 1700000) : idx_main_v11 (ix2 n (0 : Fin 1)) = ix1 n := by
  funext a; match a with | ⟨0, _⟩ => rfl

/-- The first scatter's indices: the extended target words, unwrapped. -/
theorem ref_v11 (n : Fin 1700000) : val_main_v11 (F := Ideal) x1 (ix2 n (0 : Fin 1)) = tgtR x1 n := by
  rw [val_main_v11_apply, col_idx, ref_tgtR]

/-- The second scatter's indices: the extended target words again. -/
theorem ref_v40 (n : Fin 1700000) : val_main_v40 (F := Ideal) x1 (ix2 n (0 : Fin 1)) = tgtR x1 n := by
  rw [val_main_v40_apply]
  exact (congrArg _ (col_idx n)).trans (ref_tgtR x1 n)

/-- The wrapped source words (first use: the normalisation of the source). -/
theorem ref_v18 (n : Fin 1700000) : val_main_v18 (F := Ideal) x1 (ix1 n) = wrap (srcR x1 n) := by
  rw [val_main_v18_apply, val_main_v15_apply, val_main_v17_apply, val_main_v14_apply, val_main_v16_apply,
    val_main_c_apply, val_main_c_1_apply, ref_srcR]
  rfl

/-- The wrapped target words. -/
theorem ref_v25 (n : Fin 1700000) : val_main_v25 (F := Ideal) x1 (ix1 n) = wrap (tgtR x1 n) := by
  rw [val_main_v25_apply, val_main_v22_apply, val_main_v24_apply, val_main_v21_apply, val_main_v23_apply,
    val_main_c_2_apply, val_main_c_3_apply, ref_tgtR]
  rfl

/-- The wrapped source words (second use: the row of h). -/
theorem ref_v33 (n : Fin 1700000) : val_main_v33 (F := Ideal) x1 (ix1 n) = wrap (srcR x1 n) := by
  rw [val_main_v33_apply, val_main_v30_apply, val_main_v32_apply, val_main_v29_apply, val_main_v31_apply,
    val_main_c_4_apply, val_main_c_5_apply, ref_srcR]
  rfl

/-- The three gathers' start indices, as columns. -/
theorem ref_v19 (n : Fin 1700000) : val_main_v19 (F := Ideal) x1 (ix2 n (0 : Fin 1)) = wrap (srcR x1 n) := by
  rw [val_main_v19_apply]
  exact (congrArg _ (col_idx n)).trans (ref_v18 x1 n)

theorem ref_v26 (n : Fin 1700000) : val_main_v26 (F := Ideal) x1 (ix2 n (0 : Fin 1)) = wrap (tgtR x1 n) := by
  rw [val_main_v26_apply]
  exact (congrArg _ (col_idx n)).trans (ref_v25 x1 n)

theorem ref_v34 (n : Fin 1700000) : val_main_v34 (F := Ideal) x1 (ix2 n (0 : Fin 1)) = wrap (srcR x1 n) := by
  rw [val_main_v34_apply]
  exact (congrArg _ (col_idx n)).trans (ref_v33 x1 n)

end Cert.Gcn

end
-- ==== Proof.RefDeg.lean ====
/-
  The reference's degree and normalisation. The degree of node k is the number of extended edges whose target word,
  read signed, is k: an accumulating scatter of ones into a vector of zeros (the target words are not wrapped here, so
  a word outside [0, 99999] counts for no node). The normalisation is its inverse square root.
-/
import proofs.«109403_j12893491822678_2_alg».proof.Proof.Spec
import proofs.«109403_j12893491822678_2_alg».proof.Proof.Gen.ReferenceIdeal.Read
import proofs.«109403_j12893491822678_2_alg».proof.Proof.LibScatterSums
import proofs.«109403_j12893491822678_2_alg».proof.Proof.LibScatterIdeal
import proofs.«109403_j12893491822678_2_alg».proof.Proof.RefWords
import Idealize.ShloMosaic.Lib.IdealHost

noncomputable section

open scoped BigOperators

namespace Cert.Gcn

open Idealize.ShloMosaic Idealize.ShloMosaic.ValueIdx Cert.ReferenceIdeal Cert.ReferenceIdeal.Gen Cert.ReferenceIdeal.Read

variable (x1 : (⟨S2x1600000, .i32⟩ : BufTy).Contents (Elt Ideal))

/-- The scatter's operand is the zero vector. -/
theorem ref_v10 (k : Fin 100000) : val_main_v10 (F := Ideal) (ix1 k) = 0 := by
  rw [val_main_v10_apply, val_main_cst_0_apply]
  exact Ideal.ofBits_zero_f32

/-- The scatter's updates are all one. -/
theorem ref_v9 (n : Fin 1700000) : val_main_v9 (F := Ideal) (ix1 n) = 1 := by
  rw [val_main_v9_apply, val_main_cst_apply]
  exact Ideal.ofBits_one_f32

/-- The degree of node k: one for every extended edge whose target word is k. -/
theorem ref_deg (k : Fin 100000) : val_main_v12 (F := Ideal) x1 (ix1 k) = degR x1 k := by
  unfold val_main_v12 degR
  rw [Cert.LibScatter.scatterAdd_ideal,
    Cert.LibScatter.hostScatterAdd_vec_apply scatter_S100000_S1700000x1_S1700000_n_0_0_1 rfl rfl rfl rfl,
    ref_v10, zero_add]
  refine Finset.sum_congr rfl fun n _ => ?_
  rw [ref_v11, ref_v9]

/-- The normalisation of node k. -/
theorem ref_dinv (k : Fin 100000) : val_main_v13 (F := Ideal) x1 (ix1 k) = dinvR x1 k := by
  unfold dinvR
  rw [val_main_v13_apply, ref_deg, Ideal.hostUnary_rsqrt_def]

end Cert.Gcn

end
-- ==== Proof.RefMsg.lean ====
/-
  The reference's message on an extended edge. The encoder's linear map h = x · W_encᵀ is a contraction over the 256
  input features; an extended edge n reads the row of h, and the normalisations of its source and of its target, at
  the node its wrapped word picks (three gathers), and its message on lane l is the product
  h (source) l · (dinv (source) · dinv (target)).
-/
import proofs.«109403_j12893491822678_2_alg».proof.Proof.Spec
import proofs.«109403_j12893491822678_2_alg».proof.Proof.Gen.ReferenceIdeal.Read
import proofs.«109403_j12893491822678_2_alg».proof.Proof.LibGather
import proofs.«109403_j12893491822678_2_alg».proof.Proof.RefWords
import proofs.«109403_j12893491822678_2_alg».proof.Proof.RefDeg

noncomputable section

open scoped BigOperators

namespace Cert.Gcn

open Idealize.ShloMosaic Idealize.ShloMosaic.ValueIdx Cert.ReferenceIdeal Cert.ReferenceIdeal.Gen Cert.ReferenceIdeal.Read

variable (x0 : (⟨S100000x256, .f32⟩ : BufTy).Contents (Elt Ideal)) (x1 : (⟨S2x1600000, .i32⟩ : BufTy).Contents (Elt Ideal))
  (x2 : (⟨S128x256, .f32⟩ : BufTy).Contents (Elt Ideal))

/-- The encoder's linear map at (n, l): the sum over the input features c of x n c · W_enc l c. -/
theorem ref_h (n : Fin 100000) (l : Fin 128) : val_main_v1 (F := Ideal) x0 x2 (ix2 n l) = h x0 x2 n l := by
  rw [val_main_v1_apply]
  unfold h
  refine Finset.sum_congr rfl fun c _ => ?_
  have e1 : lidx_main_v1 (ix2 n l) c = ix2 n c :=
    funext fun a => Fin.ext (by match a with | ⟨0, _⟩ => rfl | ⟨1, _⟩ => rfl)
  have e2 : idx_main_v0 (ridx_main_v1 (ix2 n l) c) = ix2 l c :=
    funext fun a => Fin.ext (by match a with | ⟨0, _⟩ => rfl | ⟨1, _⟩ => rfl)
  rw [val_main_v0_apply, e1, e2]

/-- The row a gather reads at a start index v that is the wrapped word of w: the node `pick w`. -/
theorem pick_eq (w v : BitVec 32) (hv : v = wrap w) (hp : min v.toInt.toNat (100000 - 1) < 100000) :
    (⟨min v.toInt.toNat (100000 - 1), hp⟩ : Fin 100000) = pick w := by
  subst hv
  rfl

/-- The normalisation of extended edge n's source. -/
theorem ref_v20 (n : Fin 1700000) : val_main_v20 (F := Ideal) x1 (ix1 n) = dinvR x1 (pick (srcR x1 n)) := by
  unfold val_main_v20
  rw [Cert.LibGather.gather_vec_apply gather_S100000_S1700000x1_S1700000_n_0_n_n_0_1_1 rfl rfl rfl rfl rfl rfl rfl
    (by omega), pick_eq (srcR x1 n) _ (ref_v19 x1 n)]
  exact ref_dinv x1 (pick (srcR x1 n))

/-- The normalisation of extended edge n's target. -/
theorem ref_v27 (n : Fin 1700000) : val_main_v27 (F := Ideal) x1 (ix1 n) = dinvR x1 (pick (tgtR x1 n)) := by
  unfold val_main_v27
  rw [Cert.LibGather.gather_vec_apply gather_S100000_S1700000x1_S1700000_n_0_n_n_0_1_1 rfl rfl rfl rfl rfl rfl rfl
    (by omega), pick_eq (tgtR x1 n) _ (ref_v26 x1 n)]
  exact ref_dinv x1 (pick (tgtR x1 n))

/-- The edge weight: the product of the two normalisations. -/
theorem ref_v28 (n : Fin 1700000) :
    val_main_v28 (F := Ideal) x1 (ix1 n) = dinvR x1 (pick (srcR x1 n)) * dinvR x1 (pick (tgtR x1 n)) := by
  rw [val_main_v28_apply, ref_v20, ref_v27, Ideal.mulf_def]

/-- The edge weight spread along the lanes. -/
theorem ref_v37 (n : Fin 1700000) (l : Fin 128) :
    val_main_v37 (F := Ideal) x1 (ix2 n l) = dinvR x1 (pick (srcR x1 n)) * dinvR x1 (pick (tgtR x1 n)) := by
  rw [val_main_v37_apply, val_main_v36_apply]
  have e : idx_main_v36 (idx_main_v37 (ix2 n l)) = ix1 n := funext fun a => by match a with | ⟨0, _⟩ => rfl
  rw [e, ref_v28]

/-- The row of h extended edge n reads: its source's. -/
theorem ref_v35 (n : Fin 1700000) (l : Fin 128) :
    val_main_v35 (F := Ideal) x0 x1 x2 (ix2 n l) = h x0 x2 (pick (srcR x1 n)) l := by
  unfold val_main_v35
  rw [Cert.LibGather.gather_rows_apply gather_S100000x128_S1700000x1_S1700000x128_1_0_n_n_0_1_1128 rfl rfl rfl rfl rfl
    rfl rfl (by omega), pick_eq (srcR x1 n) _ (ref_v34 x1 n)]
  exact ref_h x0 x2 (pick (srcR x1 n)) l

/-- Extended edge n's message on lane l. -/
theorem ref_msg (n : Fin 1700000) (l : Fin 128) :
    val_main_v38 (F := Ideal) x0 x1 x2 (ix2 n l) = msgR x0 x1 x2 n l := by
  unfold msgR
  rw [val_main_v38_apply, ref_v35, ref_v37, Ideal.mulf_def]

end Cert.Gcn

end
-- ==== Proof.RefValue.lean ====
/-
  The reference's two results, index by index. The pre-activation of node k on lane l is the sum of the messages of
  the extended edges whose target word, read signed, is k: an accumulating scatter of the message rows into a zero
  array. The hidden code adds the encoder bias and clips at zero; the reconstruction contracts the hidden code with
  W_dec over the 128 lanes and adds the decoder bias.
-/
import proofs.«109403_j12893491822678_2_alg».proof.Proof.Spec
import proofs.«109403_j12893491822678_2_alg».proof.Proof.Gen.ReferenceIdeal.Read
import proofs.«109403_j12893491822678_2_alg».proof.Proof.LibScatterRows
import proofs.«109403_j12893491822678_2_alg».proof.Proof.LibScatterIdeal
import proofs.«109403_j12893491822678_2_alg».proof.Proof.RefWords
import proofs.«109403_j12893491822678_2_alg».proof.Proof.RefMsg

noncomputable section

open scoped BigOperators

namespace Cert.Gcn

open Idealize.ShloMosaic Idealize.ShloMosaic.ValueIdx Cert.ReferenceIdeal Cert.ReferenceIdeal.Gen Cert.ReferenceIdeal.Read

variable (x0 : (⟨S100000x256, .f32⟩ : BufTy).Contents (Elt Ideal)) (x1 : (⟨S2x1600000, .i32⟩ : BufTy).Contents (Elt Ideal))
  (x2 : (⟨S128x256, .f32⟩ : BufTy).Contents (Elt Ideal)) (x3 : (⟨S128, .f32⟩ : BufTy).Contents (Elt Ideal))
  (x4 : (⟨S256x128, .f32⟩ : BufTy).Contents (Elt Ideal)) (x5 : (⟨S256, .f32⟩ : BufTy).Contents (Elt Ideal))

/-- The scatter's operand is the zero array. -/
theorem ref_v39 (k : Fin 100000) (l : Fin 128) : val_main_v39 (F := Ideal) (ix2 k l) = 0 := by
  rw [val_main_v39_apply, val_main_cst_6_apply]
  exact Ideal.ofBits_zero_f32

/-- The pre-activation of node k on lane l: the messages of the extended edges landing on k, summed. -/
theorem ref_pre (k : Fin 100000) (l : Fin 128) : val_main_v41 (F := Ideal) x0 x1 x2 (ix2 k l) = preR x0 x1 x2 k l := by
  unfold val_main_v41 preR
  rw [Cert.LibScatter.scatterAdd_ideal,
    Cert.LibScatter.hostScatterAdd_rows_apply scatter_S100000x128_S1700000x1_S1700000x128_1_0_0_1 rfl rfl rfl rfl,
    ref_v39, zero_add]
  refine Finset.sum_congr rfl fun n _ => ?_
  rw [ref_v40, ref_msg]

/-- The clip's threshold is the zero array. -/
theorem ref_clip0 (k : Fin 100000) (l : Fin 128) : val_main_call0_v0 (F := Ideal) (ix2 k l) = 0 := by
  rw [val_main_call0_v0_apply, val_main_call0_cst_apply]
  exact Ideal.ofBits_zero_f32

/-- The hidden code: the pre-activation plus the encoder bias, clipped at zero. -/
theorem ref_z (k : Fin 100000) (l : Fin 128) :
    val_main_v45 (F := Ideal) x0 x1 x2 x3 (ix2 k l) = zOf x3 (preR x0 x1 x2) k l := by
  have e : idx_main_v42 (idx_main_v43 (ix2 k l)) = ix1 l := funext fun a => by match a with | ⟨0, _⟩ => rfl
  unfold zOf
  rw [val_main_v45_apply, val_main_v44_apply, ref_pre, val_main_v43_apply, val_main_v42_apply, e, ref_clip0,
    Ideal.maximumf_def, Ideal.addf_def]

/-- The reconstruction: the hidden code contracted with W_dec over the lanes, plus the decoder bias. -/
theorem ref_xr (k : Fin 100000) (j : Fin 256) :
    val_main_v50 (F := Ideal) x0 x1 x2 x3 x4 x5 (ix2 k j) = xrOf x4 x5 (zOf x3 (preR x0 x1 x2)) k j := by
  have e : idx_main_v48 (idx_main_v49 (ix2 k j)) = ix1 j := funext fun a => by match a with | ⟨0, _⟩ => rfl
  unfold xrOf
  rw [val_main_v50_apply, val_main_v47_apply, val_main_v49_apply, val_main_v48_apply, e, Ideal.addf_def]
  refine congrArg (· + x5 (ix1 j)) ?_
  refine Finset.sum_congr rfl fun l _ => ?_
  have e1 : lidx_main_v47 (ix2 k j) l = ix2 k l :=
    funext fun a => Fin.ext (by match a with | ⟨0, _⟩ => rfl | ⟨1, _⟩ => rfl)
  have e2 : idx_main_v46 (ridx_main_v47 (ix2 k j) l) = ix2 j l :=
    funext fun a => Fin.ext (by match a with | ⟨0, _⟩ => rfl | ⟨1, _⟩ => rfl)
  rw [val_main_v46_apply, e1, e2, ref_z]

end Cert.Gcn

end
-- ==== Proof.LibRealSums.lean ====
/-
  Extended-real algebra for a quantised linear layer.

  A weight row is replaced by a ternary row `q` times one positive scale `s`.  One program forms the
  effective weight `w + (q · s − w)` and contracts it with the activations; the other contracts the
  ternary row and multiplies the finished sum by `s` once.  On the reals the two agree: the weight
  cancels, and `s` leaves the sum by distributivity.  On the extended reals both steps need every
  quantity to be finite, which is what the lemmas here assume.
-/
import Mathlib.Data.EReal.Operations
import Mathlib.Algebra.BigOperators.Ring.Finset

namespace Cert.ScaledSum

open scoped BigOperators

/-- An extended real between two reals is a real. -/
theorem real_of_between (a b : ℝ) (x : EReal) (h1 : (a : EReal) ≤ x) (h2 : x ≤ (b : EReal)) : ∃ r : ℝ, x = (r : EReal) := by
  induction x using EReal.rec with
  | bot => exact absurd h1 (not_le.2 (EReal.bot_lt_coe a))
  | coe r => exact ⟨r, rfl⟩
  | top => exact absurd h2 (not_le.2 (EReal.coe_lt_top b))

/-- The maximum of two reals, taken in the extended reals, is the real maximum. -/
theorem coe_max (a b : ℝ) : ((max a b : ℝ) : EReal) = max (a : EReal) (b : EReal) :=
  EReal.coe_strictMono.monotone.map_max

/-- A finite sum of reals, taken in the extended reals, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A finite sum of finite extended reals is finite. -/
theorem exists_real_sum {ι : Type*} (s : Finset ι) (f : ι → EReal) (hf : ∀ k, ∃ r : ℝ, f k = (r : EReal)) :
    ∃ r : ℝ, (∑ k ∈ s, f k) = (r : EReal) := by
  choose g hg using hf
  exact ⟨∑ k ∈ s, g k, by rw [← coe_sum]; exact Finset.sum_congr rfl fun k _ => hg k⟩

/-- The straight-through weight: a finite `w` added to `a − w` gives back `a`. -/
theorem add_sub_cancel_real (w a : ℝ) : (w : EReal) + ((a : EReal) - (w : EReal)) = (a : EReal) := by
  rw [← EReal.coe_sub, ← EReal.coe_add]; congr 1; ring

/-- Contracting the activations with the effective weight `w + (q · s − w)` is contracting them with the
    ternary row and scaling the finished sum by `s`, all quantities finite. -/
theorem sum_effective_weight {ι : Type*} [Fintype ι] (X W Q : ι → EReal) (s : EReal)
    (hX : ∀ k, ∃ r : ℝ, X k = (r : EReal)) (hW : ∀ k, ∃ r : ℝ, W k = (r : EReal))
    (hQ : ∀ k, ∃ r : ℝ, Q k = (r : EReal)) (hs : ∃ r : ℝ, s = (r : EReal)) :
    (∑ k, X k * (W k + (Q k * s - W k))) = (∑ k, X k * Q k) * s := by
  choose x hx using hX
  choose w hw using hW
  choose q hq using hQ
  obtain ⟨t, rfl⟩ := hs
  have e1 : ∀ k, X k * (W k + (Q k * (t : EReal) - W k)) = ((x k * q k * t : ℝ) : EReal) := fun k => by
    rw [hx k, hw k, hq k, ← EReal.coe_mul, add_sub_cancel_real, ← EReal.coe_mul]; congr 1; ring
  have e2 : ∀ k, X k * Q k = ((x k * q k : ℝ) : EReal) := fun k => by rw [hx k, hq k, ← EReal.coe_mul]
  rw [Finset.sum_congr rfl fun k _ => e1 k, Finset.sum_congr rfl fun k _ => e2 k, coe_sum, coe_sum, ← EReal.coe_mul,
    Finset.sum_mul]

end Cert.ScaledSum
-- ==== Proof.Law.lean ====
/-
  Why the two arrangements of the graph convolution's pre-activation agree on finite inputs.

  The reference sums over 1700000 extended edges: the 1600000 edges, then one self-loop per node.  A sum over the
  extended edges is the sum over the edges plus the sum over the self-loops; self-loop i carries the word of the node
  number i both as source and as target, that word reads back signed as i (it is below 2^31) and is gathered at row
  i, so among the self-loops exactly the one of node k lands on k.  Hence the reference's degree is the kernel's
  (the edges landing on k, plus one), the two normalisations agree, and the reference's pre-activation is the sum
  over the edges landing on k of h (source) · (dinv (source) · dinv k) plus h k · (dinv k · dinv k): an edge that
  lands on k has a non-negative target word, which the gather reads at row k.

  The kernel instead forms dinv k · ∑ h (source) · dinv (source) + (dinv k · dinv k) · h k.  The two differ by moving
  the factor dinv k into the sum, which is distributivity; on the extended reals that holds when every quantity is a
  real number.  They are: h is a finite sum of products of finite inputs, a degree is a real number that is at
  least 1, so its inverse square root is the real (√deg)⁻¹.
-/
import proofs.«109403_j12893491822678_2_alg».proof.Proof.Spec
import proofs.«109403_j12893491822678_2_alg».proof.Proof.LibRealSums
import Mathlib

noncomputable section

open scoped BigOperators

namespace Cert.Gcn

open Idealize.ShloMosaic Idealize.ShloMosaic.ValueIdx

/-! ## Words -/

/-- A natural number below 2^31, written as a 32-bit word and read back signed, is itself. -/
theorem toInt_ofNat_small (i : Nat) (hi : i < 2147483648) : (BitVec.ofNat 32 i).toInt = (i : Int) := by
  rw [BitVec.toInt_eq_toNat_cond, BitVec.toNat_ofNat]
  have e : i % 2 ^ 32 = i := Nat.mod_eq_of_lt (by omega)
  rw [e]
  split <;> omega

/-- A word that reads as a non-negative number is not moved by the wrap. -/
theorem wrap_of_nonneg (w : BitVec 32) (hw : 0 ≤ w.toInt) : wrap w = w := by
  unfold wrap
  have e : IntOp.cmpi .slt w 0#32 = 0#1 := by
    unfold IntOp.cmpi
    have : w.slt 0#32 = false := by
      rw [BitVec.slt]
      simp
      exact hw
    simp [this]
  rw [e, select_zero]

/-- A word that reads as the node number k is gathered at row k. -/
theorem pick_of_toInt (w : BitVec 32) (k : Fin 100000) (hw : w.toInt = (k.val : Int)) : pick w = k := by
  have h0 : 0 ≤ w.toInt := by omega
  apply Fin.ext
  show min (wrap w).toInt.toNat 99999 = k.val
  rw [wrap_of_nonneg w h0, hw]
  have := k.isLt
  simp
  omega

/-- The word of a node number reads back as that number. -/
theorem toInt_node (i : Fin 100000) : (BitVec.ofNat 32 i.val).toInt = (i.val : Int) :=
  toInt_ofNat_small i.val (by have := i.isLt; omega)

/-- The word of a node number is gathered at that node's row. -/
theorem pick_node (i : Fin 100000) : pick (BitVec.ofNat 32 i.val) = i := pick_of_toInt _ i (toInt_node i)

/-! ## Splitting a sum over the extended edges into the edges and the self-loops -/

/-- A sum over a + b indices is the sum over the first a plus the sum over the last b. -/
theorem sum_fin_add {a b c : ℕ} (hc : c = a + b) (f : Fin c → EReal) :
    ∑ n, f n = (∑ e : Fin a, f ⟨e.val, by omega⟩) + ∑ i : Fin b, f ⟨a + i.val, by omega⟩ := by
  subst hc
  exact Fin.sum_univ_add f

/-- Among the node numbers exactly one is k. -/
theorem sum_self (k : Fin 100000) (g : Fin 100000 → EReal) :
    (∑ i : Fin 100000, if ((i.val : Int) = (k.val : Int)) then g i else 0) = g k := by
  have e : ∀ i : Fin 100000, (if ((i.val : Int) = (k.val : Int)) then g i else 0) = if i = k then g i else 0 := fun i => by
    by_cases hik : i = k
    · subst hik; simp
    · have : ¬ ((i.val : Int) = (k.val : Int)) := fun h => hik (Fin.ext (by exact_mod_cast h))
      rw [if_neg this, if_neg hik]
  rw [Finset.sum_congr rfl fun i _ => e i, Finset.sum_ite_eq']
  simp

variable (x : SX.Idx → EReal) (ei : SE.Idx → BitVec 32) (We : SWe.Idx → EReal)

theorem tgtR_lo (e : Fin 1600000) : tgtR ei ⟨e.val, by omega⟩ = tgt ei e := dif_pos e.isLt

theorem srcR_lo (e : Fin 1600000) : srcR ei ⟨e.val, by omega⟩ = src ei e := dif_pos e.isLt

theorem tgtR_hi (i : Fin 100000) : tgtR ei ⟨1600000 + i.val, by omega⟩ = BitVec.ofNat 32 i.val := by
  have hn : ¬ (1600000 + i.val < 1600000) := by omega
  have e : tgtR ei ⟨1600000 + i.val, by omega⟩ = BitVec.ofNat 32 (1600000 + i.val - 1600000) := dif_neg hn
  rw [e, Nat.add_sub_cancel_left]

theorem srcR_hi (i : Fin 100000) : srcR ei ⟨1600000 + i.val, by omega⟩ = BitVec.ofNat 32 i.val := by
  have hn : ¬ (1600000 + i.val < 1600000) := by omega
  have e : srcR ei ⟨1600000 + i.val, by omega⟩ = BitVec.ofNat 32 (1600000 + i.val - 1600000) := dif_neg hn
  rw [e, Nat.add_sub_cancel_left]

/-! ## The two degrees agree -/

/-- The reference counts each node's self-loop among its 1700000 edges; the kernel adds the one apart. -/
theorem degR_eq (k : Fin 100000) : degR ei k = degK ei k := by
  unfold degR degK
  rw [sum_fin_add (a := 1600000) (b := 100000) rfl]
  refine congrArg₂ (· + ·) ?_ ?_
  · exact Finset.sum_congr rfl fun e _ => by rw [tgtR_lo]
  · have e : ∀ i : Fin 100000, (if (tgtR ei ⟨1600000 + i.val, by omega⟩).toInt = (k.val : Int) then (1 : EReal) else 0)
        = if ((i.val : Int) = (k.val : Int)) then (1 : EReal) else 0 := fun i => by rw [tgtR_hi, toInt_node]
    rw [Finset.sum_congr rfl fun i _ => e i]
    exact sum_self k (fun _ => 1)

theorem dinvR_eq (k : Fin 100000) : dinvR ei k = dinvK ei k := by
  unfold dinvR dinvK; rw [degR_eq]

/-! ## Everything in sight is a real number -/

/-- The encoder's linear map of finite inputs is finite. -/
theorem h_real (hx : ∀ i, ∃ r : ℝ, x i = (r : EReal)) (hW : ∀ i, ∃ r : ℝ, We i = (r : EReal))
    (n : Fin 100000) (l : Fin 128) : ∃ r : ℝ, h x We n l = (r : EReal) := by
  unfold h
  apply Cert.ScaledSum.exists_real_sum
  intro c
  obtain ⟨a, ha⟩ := hx (ix2 n c)
  obtain ⟨b, hb⟩ := hW (ix2 l c)
  exact ⟨a * b, by rw [ha, hb, EReal.coe_mul]⟩

/-- A degree is a real number, at least one. -/
theorem degK_real (k : Fin 100000) : ∃ r : ℝ, 1 ≤ r ∧ degK ei k = (r : EReal) := by
  refine ⟨(∑ e : Fin 1600000, if (tgt ei e).toInt = (k.val : Int) then (1 : ℝ) else 0) + 1, ?_, ?_⟩
  · have h0 : 0 ≤ ∑ e : Fin 1600000, if (tgt ei e).toInt = (k.val : Int) then (1 : ℝ) else 0 :=
      Finset.sum_nonneg fun e _ => by split <;> norm_num
    linarith
  · unfold degK
    rw [EReal.coe_add, ← Cert.ScaledSum.coe_sum]
    refine congrArg₂ (· + ·) (Finset.sum_congr rfl fun e _ => ?_) EReal.coe_one.symm
    split <;> simp

/-- The inverse square root of a degree is a real number. -/
theorem dinvK_real (k : Fin 100000) : ∃ r : ℝ, dinvK ei k = (r : EReal) := by
  obtain ⟨r, hr, e⟩ := degK_real ei k
  unfold dinvK
  rw [e, Ideal.rsqrt_coe, if_neg (by linarith), if_neg (by linarith)]
  exact ⟨_, rfl⟩

/-! ## The law: a finite factor may be moved inside a finite sum of finite terms -/

/-- d · ∑ (a · b over the chosen indices) + (d · d) · t is ∑ (a · (b · d) over the chosen indices) + t · (d · d),
    every quantity a real number: pass to ℝ, where it is distributivity. -/
theorem scale_law {ι : Type*} [Fintype ι] (c : ι → Prop) [DecidablePred c] (a b : ι → EReal) (d hk : EReal)
    (ha : ∀ e, ∃ r : ℝ, a e = (r : EReal)) (hb : ∀ e, ∃ r : ℝ, b e = (r : EReal))
    (hd : ∃ r : ℝ, d = (r : EReal)) (hh : ∃ r : ℝ, hk = (r : EReal)) :
    d * (∑ e, if c e then a e * b e else 0) + (d * d) * hk
      = (∑ e, if c e then a e * (b e * d) else 0) + hk * (d * d) := by
  choose a' ha using ha
  choose b' hb using hb
  obtain ⟨d', rfl⟩ := hd
  obtain ⟨h', rfl⟩ := hh
  have e1 : ∀ e, (if c e then a e * b e else 0) = (((if c e then a' e * b' e else 0 : ℝ)) : EReal) := fun e => by
    rw [ha e, hb e]; split
    · rw [EReal.coe_mul]
    · rfl
  have e2 : ∀ e, (if c e then a e * (b e * (d' : EReal)) else 0)
      = (((if c e then a' e * (b' e * d') else 0 : ℝ)) : EReal) := fun e => by
    rw [ha e, hb e]; split
    · rw [EReal.coe_mul, EReal.coe_mul]
    · rfl
  rw [Finset.sum_congr rfl fun e _ => e1 e, Finset.sum_congr rfl fun e _ => e2 e, Cert.ScaledSum.coe_sum,
    Cert.ScaledSum.coe_sum, ← EReal.coe_mul, ← EReal.coe_mul, ← EReal.coe_mul, ← EReal.coe_mul, ← EReal.coe_add,
    ← EReal.coe_add]
  congr 1
  rw [Finset.mul_sum]
  congr 1
  · exact Finset.sum_congr rfl fun e _ => by split <;> ring
  · ring

/-! ## The reference's sum, split -/

/-- The reference's pre-activation: the edges landing on k, each weighted by the two normalisations, plus the
    self-loop of k. -/
theorem preR_split (k : Fin 100000) (l : Fin 128) :
    preR x ei We k l = (∑ e : Fin 1600000, if (tgt ei e).toInt = (k.val : Int)
        then h x We (pick (src ei e)) l * (dinvK ei (pick (src ei e)) * dinvK ei k) else 0)
      + h x We k l * (dinvK ei k * dinvK ei k) := by
  unfold preR
  rw [sum_fin_add (a := 1600000) (b := 100000) rfl]
  refine congrArg₂ (· + ·) ?_ ?_
  · refine Finset.sum_congr rfl fun e _ => ?_
    rw [tgtR_lo]
    by_cases hc : (tgt ei e).toInt = (k.val : Int)
    · rw [if_pos hc, if_pos hc]
      unfold msgR
      rw [tgtR_lo, srcR_lo, dinvR_eq, dinvR_eq, pick_of_toInt _ k hc]
    · rw [if_neg hc, if_neg hc]
  · have e : ∀ i : Fin 100000, (if (tgtR ei ⟨1600000 + i.val, by omega⟩).toInt = (k.val : Int)
          then msgR x ei We ⟨1600000 + i.val, by omega⟩ l else 0)
        = if ((i.val : Int) = (k.val : Int)) then h x We i l * (dinvK ei i * dinvK ei i) else 0 := fun i => by
      rw [tgtR_hi, toInt_node]
      unfold msgR
      rw [tgtR_hi, srcR_hi, dinvR_eq, pick_node]
    rw [Finset.sum_congr rfl fun i _ => e i]
    exact sum_self k (fun i => h x We i l * (dinvK ei i * dinvK ei i))

/-! ## The two pre-activations agree on finite inputs -/

/-- With finite x and W_enc, the kernel's pre-activation (scale the rows, sum over the edges landing on k, scale the
    sum, add the self-loop term) is the reference's (sum the weighted messages over the extended edges). -/
theorem preK_eq_preR (hx : ∀ i, ∃ r : ℝ, x i = (r : EReal)) (hW : ∀ i, ∃ r : ℝ, We i = (r : EReal))
    (k : Fin 100000) (l : Fin 128) : preK x ei We k l = preR x ei We k l := by
  rw [preR_split]
  unfold preK aggK
  exact scale_law (fun e : Fin 1600000 => (tgt ei e).toInt = (k.val : Int))
    (fun e => h x We (pick (src ei e)) l) (fun e => dinvK ei (pick (src ei e))) (dinvK ei k) (h x We k l)
    (fun e => h_real x We hx hW _ l) (fun e => dinvK_real ei _) (dinvK_real ei k) (h_real x We hx hW k l)

end Cert.Gcn

end
-- ==== Proof.Finite.lean ====
/-
  From "every float input is finite" to "every entry of x and of W_enc is a real number".

  The precondition is a conjunction of six tests, one per float argument: |a| < +∞ at every entry, the entries'
  tests joined by "and" into one bit, the six bits joined by "and", and the result required to be 1.  A conjunction
  that is 1 has every conjunct 1; an "and" over all entries that is 1 met 1 at every entry; and an extended real
  whose absolute value max(a, −a) lies strictly below +∞ is neither +∞ nor −∞, so it is a real number.
-/
import proofs.«109403_j12893491822678_2_alg».proof.Pre_finite_inputs
import Idealize.ShloMosaic.Lib.ReduceAll
import Idealize.ShloMosaic.Lib.ValueIdx
import Idealize.ShloMosaic.PureOps.Ideal

noncomputable section

namespace Cert.Gcn

open Idealize.ShloMosaic Idealize.ShloMosaic.ValueIdx
open Cert.Pre_finite_inputs

/-- The shape of a single bit has one index. -/
instance : Subsingleton S_.Idx := ⟨fun a b => funext fun d => d.elim0⟩

/-- An extended real whose absolute value is strictly below +∞ (the f32 pattern 0x7F800000) is a real number. -/
theorem real_of_abs_lt_inf (v : EReal)
    (hv : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at hv
  unfold Ideal.cmp at hv
  induction v using EReal.rec with
  | bot => simp at hv
  | coe r => exact ⟨r, rfl⟩
  | top => simp at hv

/-- Under the precondition every entry of x (the first argument) and of W_enc (the third) is a real number. -/
theorem finite_of_pre [Facts] (x0 : FVec Ideal S100000x256 .f32) (x1 : IVec S2x1600000 32)
    (x2 : FVec Ideal S128x256 .f32) (x3 : FVec Ideal S128 .f32) (x4 : FVec Ideal S256x128 .f32)
    (x5 : FVec Ideal S256 .f32)
    (hpre : fn (F := Ideal) x0 x1 x2 x3 x4 x5 = (fun _ => 1#1)) :
    (∀ i, ∃ r : ℝ, x0 i = (r : EReal)) ∧ (∀ i, ∃ r : ℝ, x2 i = (r : EReal)) := by
  have e := congrFun hpre ix0
  dsimp only [fn, fn_part1] at e
  obtain ⟨h18, -⟩ := IntOp.andi_eq_one.1 e
  obtain ⟨h13, -⟩ := IntOp.andi_eq_one.1 h18
  obtain ⟨h8, -⟩ := IntOp.andi_eq_one.1 h13
  obtain ⟨h3, h7⟩ := IntOp.andi_eq_one.1 h8
  exact ⟨fun i => real_of_abs_lt_inf (x0 i) (Host.reduce_andi_all _ _ _ _ _ h3 i),
    fun i => real_of_abs_lt_inf (x2 i) (Host.reduce_andi_all _ _ _ _ _ h7 i)⟩

end Cert.Gcn

end
-- ==== Proof.Claims.lean ====
/-
  The five claims.

  The three frames: the two kernel programs' are the generated frame certificates; the reference has no kernel, and
  its frame is its generated run with the results dropped.  The idealization rewrote nothing, so there is nothing to
  preserve.  The algebraic claim: the idealized kernel ends with the hidden code and the reconstruction in the
  kernel's arrangement (scale the rows, sum over the edges, scale the sum, add the self-loop term), the reference
  with the same two arrays in its own arrangement (one extended edge list, every edge weighted by both
  normalisations); on finite x and W_enc — which the precondition gives — the two arrangements agree entry by entry,
  and the decoding is the same function of the hidden code on both sides.
-/
import proofs.«109403_j12893491822678_2_alg».proof.Defs
import proofs.«109403_j12893491822678_2_alg».proof.Proof.Gen.Kernel.Frame
import proofs.«109403_j12893491822678_2_alg».proof.Proof.Gen.KernelIdeal.Frame
import proofs.«109403_j12893491822678_2_alg».proof.Proof.Gen.ReferenceIdeal.Run
import proofs.«109403_j12893491822678_2_alg».proof.Proof.Gen.ReferenceIdeal.Read
import proofs.«109403_j12893491822678_2_alg».proof.Proof.Gen.Pre_finite_inputs
import proofs.«109403_j12893491822678_2_alg».proof.Proof.KRun
import proofs.«109403_j12893491822678_2_alg».proof.Proof.KValue
import proofs.«109403_j12893491822678_2_alg».proof.Proof.RefValue
import proofs.«109403_j12893491822678_2_alg».proof.Proof.Law
import proofs.«109403_j12893491822678_2_alg».proof.Proof.Finite

set_option maxRecDepth 16384

noncomputable section

namespace Cert.Proof.Claims

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The hidden codes of the two arrangements agree on finite inputs. -/
theorem z_eq (x : Cert.Gcn.SX.Idx → EReal) (ei : Cert.Gcn.SE.Idx → BitVec 32) (We : Cert.Gcn.SWe.Idx → EReal)
    (be : Cert.Gcn.SBe.Idx → EReal) (hx : ∀ i, ∃ r : ℝ, x i = (r : EReal)) (hW : ∀ i, ∃ r : ℝ, We i = (r : EReal)) :
    Cert.Gcn.zOf be (Cert.Gcn.preK x ei We) = Cert.Gcn.zOf be (Cert.Gcn.preR x ei We) := by
  funext k l
  unfold Cert.Gcn.zOf
  rw [Cert.Gcn.preK_eq_preR x ei We hx hW]

theorem algebraic : Cert.algebraic_KernelIdeal_ReferenceIdeal := by
  intro m ρ m' ρ' hpre hagree
  refine ⟨fun c => Cert.KernelIdeal.Gen.W4 m ρ c (Proc.devRef .tc Cert.KernelIdeal.main_v28_0),
    fun c => Cert.KernelIdeal.Gen.W4 m ρ c (Proc.devRef .tc Cert.KernelIdeal.main_v28_1),
    Cert.KernelIdeal.KRun.run_out (F := Ideal) m ρ, ?_⟩
  refine (θ_run Cert.ReferenceIdeal.defs _ _).mono (fun r h c => ?_) (Cert.ReferenceIdeal.Value.run (F := Ideal) m' ρ')
  obtain ⟨h45, h50, hargs⟩ := h c
  obtain ⟨a0, a1, a2, a3, a4, a5⟩ := hagree c
  obtain ⟨fx, fW⟩ := Cert.Gcn.finite_of_pre _ _ _ _ _ _ (hpre c)
  have hz := z_eq _ (m ((c.tc : Thread Cert.KernelIdeal.nD Cert.KernelIdeal.τ).loc Cert.KernelIdeal.main_arg1)) _
    (m ((c.tc : Thread Cert.KernelIdeal.nD Cert.KernelIdeal.τ).loc Cert.KernelIdeal.main_arg3)) fx fW
  refine ⟨h45.trans ?_, h50.trans ?_, hargs⟩
  · rw [Cert.ReferenceIdeal.Read.val_main_v45_eq, a0, a1, a2, a3]
    refine funext fun i => ?_
    have h0 : (i 0).val < 100000 := (i 0).isLt
    have h1 : (i 1).val < 128 := (i 1).isLt
    have hi : i = ix2 (⟨(i 0).val, h0⟩ : Fin 100000) (⟨(i 1).val, h1⟩ : Fin 128) := by
      funext a; match a with | ⟨0, _⟩ => rfl | ⟨1, _⟩ => rfl
    rw [hi]
    refine (Cert.Gcn.ref_z _ _ _ _ _ _).trans ?_
    refine Eq.trans ?_ (Cert.KernelIdeal.KValue.out_z m ρ c _ _).symm
    rw [hz]
  · rw [Cert.ReferenceIdeal.Read.val_main_v50_eq, a0, a1, a2, a3, a4, a5]
    refine funext fun i => ?_
    have h0 : (i 0).val < 100000 := (i 0).isLt
    have h1 : (i 1).val < 256 := (i 1).isLt
    have hi : i = ix2 (⟨(i 0).val, h0⟩ : Fin 100000) (⟨(i 1).val, h1⟩ : Fin 256) := by
      funext a; match a with | ⟨0, _⟩ => rfl | ⟨1, _⟩ => rfl
    rw [hi]
    refine (Cert.Gcn.ref_xr _ _ _ _ _ _ _ _).trans ?_
    refine Eq.trans ?_ (Cert.KernelIdeal.KValue.out_xr m ρ c _ _).symm
    rw [hz]

end Cert.Proof.Claims

end
-- ==== Proof.lean ====
/-
  A graph-convolution autoencoder: h = x · W_encᵀ, a symmetric-normalised sum over the edges into each node (with
  a self-loop), a bias and a clip at zero give the hidden code, and a linear decoder gives the reconstruction.
  The kernel scales the rows of h by the nodes' normalisation before the edge sum, multiplies the sum by the
  target's normalisation afterwards and adds the self-loop term apart; the reference appends one self-loop edge per
  node and weights each edge by both normalisations.  Over the extended reals the two agree on finite x and W_enc
  (distributivity needs finiteness), which is what the algebraic claim states; the modules under Proof/ read each
  program's results as functions of the arguments (Spec: the two arrangements; KRun … KValue: the kernel;
  RefWords … RefValue: the reference; Law: the two arrangements agree; Finite: the precondition gives finiteness)
  and Claims assembles the five conjuncts.
-/
import proofs.«109403_j12893491822678_2_alg».proof.Defs
import proofs.«109403_j12893491822678_2_alg».proof.Proof.Gen.Kernel
import proofs.«109403_j12893491822678_2_alg».proof.Proof.Gen.Kernel.Skeleton
import proofs.«109403_j12893491822678_2_alg».proof.Proof.Gen.Kernel.Launch
import proofs.«109403_j12893491822678_2_alg».proof.Proof.Gen.Kernel.Points
import proofs.«109403_j12893491822678_2_alg».proof.Proof.Gen.Kernel.Frame
import proofs.«109403_j12893491822678_2_alg».proof.Proof.Gen.KernelIdeal
import proofs.«109403_j12893491822678_2_alg».proof.Proof.Gen.KernelIdeal.Skeleton
import proofs.«109403_j12893491822678_2_alg».proof.Proof.Gen.KernelIdeal.Launch
import proofs.«109403_j12893491822678_2_alg».proof.Proof.Gen.KernelIdeal.Points
import proofs.«109403_j12893491822678_2_alg».proof.Proof.Gen.KernelIdeal.Frame
import proofs.«109403_j12893491822678_2_alg».proof.Proof.Gen.ReferenceIdeal
import proofs.«109403_j12893491822678_2_alg».proof.Proof.Gen.ReferenceIdeal.Run
import proofs.«109403_j12893491822678_2_alg».proof.Proof.Gen.ReferenceIdeal.Read
import proofs.«109403_j12893491822678_2_alg».proof.Proof.Gen.Pre_finite_inputs
import proofs.«109403_j12893491822678_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
